-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x4096x8 : Shape := ⟨3, ![16, 4096, 8]⟩
abbrev S8x512x8 : Shape := ⟨3, ![8, 512, 8]⟩
abbrev S8x512 : Shape := ⟨2, ![8, 512]⟩
abbrev S8x4096 : Shape := ⟨2, ![8, 4096]⟩
abbrev S8x512x512 : Shape := ⟨3, ![8, 512, 512]⟩
abbrev S16 : Shape := ⟨1, ![16]⟩

abbrev nBuf : Space → Nat
  | .hbm => 40
  | .vmem => 7
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S_, .f32⟩
  | .hbm, ⟨15, _⟩ => ⟨S16x4096x3, .f32⟩
  | .hbm, ⟨16, _⟩ => ⟨S16x4096x3, .f32⟩
  | .hbm, ⟨17, _⟩ => ⟨S_, .f32⟩
  | .hbm, ⟨18, _⟩ => ⟨S16x4096x3, .f32⟩
  | .hbm, ⟨19, _⟩ => ⟨S16x4096x8, .f32⟩
  | .hbm, ⟨20, _⟩ => ⟨S_, .f32⟩
  | .hbm, ⟨21, _⟩ => ⟨S16x4096x3, .f32⟩
  | .hbm, ⟨22, _⟩ => ⟨S16x4096x8, .f32⟩
  | .hbm, ⟨23, _⟩ => ⟨S16x4096, .f32⟩
  | .hbm, ⟨24, _⟩ => ⟨S16x4096, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S8x512x8, .f32⟩
  | .local _ .vmem, ⟨1, _⟩ => ⟨S8x512x8, .f32⟩
  | .local _ .vmem, ⟨2, _⟩ => ⟨S8x512x8, .f32⟩
  | .local _ .vmem, ⟨3, _⟩ => ⟨S8x512x8, .f32⟩
  | .local _ .vmem, ⟨4, _⟩ => ⟨S8x512, .f32⟩
  | .local _ .vmem, ⟨5, _⟩ => ⟨S8x512, .f32⟩
  | .local _ .vmem, ⟨6, _⟩ => ⟨S8x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_10 : Ref sig .tc := ⟨.hbm, 36, rfl⟩
abbrev main_v22 : Ref sig .tc := ⟨.hbm, 37, rfl⟩
abbrev main_cst_11 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v19 : BitVec 32 := Scalar.muli arg2 c512_i32
  v19
def k0_off1 (i : grid0.Coords) : Fin 2 → Nat :=
  let c0_15 : Index := 0#32
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  ![0, v21.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S_S16x4096x3 : S_.BroadcastsInDim S16x4096x3 (![] : Fin 0 → Fin S16x4096x3.rank)
  concatenates_S16x4096x1_S16x4096x1_S16x4096x3_S16x4096x3_S16x4096x8_d2 : Shape.Concatenates [S16x4096x1, S16x4096x1, S16x4096x3, S16x4096x3] S16x4096x8 2
  inb_S8x512x8_S8x512x8_0_0_0 : ∀ a, (![0, 0, 0] : Fin 3 → Nat) a + S8x512x8.size a ≤ S8x512x8.size a
  h_S8x512x8 : 0 < S8x512x8.numel
  shapeCasts_S8x512x8_S8x512x8 : S8x512x8.ShapeCasts S8x512x8
  reduces_S8x512x512_S8x512 : S8x512x512.Reduces [2] S8x512
  reduces_S8x512x512_S8x512_2 : S8x512x512.Reduces [1] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  reducesTo_S16x4096_S16_d1 : S16x4096.ReducesTo [1] S16
  bcast_S_S16 : S_.BroadcastsInDim S16 (![] : Fin 0 → Fin S16.rank)
  reducesTo_S16_S_d0 : S16.ReducesTo [0] S_
  dot_S8x512x8_S8x512x8_S8x512x512_2_2_1_1_0_0_wf : DotDims.WF S8x512x8 S8x512x8 S8x512x512 [2] [2] [1] [1] [0] [0]
  hrank0 : 0 < grid0.rank
  k0_mult1_dvd : ∀ i : grid0.Coords, 128 ∣ (k0_mult1 i).toNat
  k0_off1_inb : ∀ i : grid0.Coords, ∀ a, (k0_off1 i) a + S8x512.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x8.size a ≤ S16x4096x8.size a
  hwx0_0 : ∀ i : grid0.Coords, EltTy.bits .f32 = 32 ∨ (Rect.block (s := S16x4096x8) S8x512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x8.size a ≤ S16x4096x8.size a
  hwx0_1 : ∀ i : grid0.Coords, EltTy.bits .f32 = 32 ∨ (Rect.block (s := S16x4096x8) S8x512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S16x4096.size a
  hwx0_2 : ∀ i : grid0.Coords, EltTy.bits .f32 = 32 ∨ (Rect.block (s := S16x4096) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S16x4096.size a
  hwx0_3 : ∀ i : grid0.Coords, EltTy.bits .f32 = 32 ∨ (Rect.block (s := S16x4096) S8x4096.size (cc0_transform_3 i) (hinb0_3 i)).WholeWords (EltTy.packing .f32)

variable [Facts₀]

def dot_S8x512x8_S8x512x8_S8x512x512_2_2_1_1_0_0 : DotDims S8x512x8 S8x512x8 S8x512x512 where
  lhsContracting := [2]
  rhsContracting := [2]
  lhsNonContracting := [1]
  rhsNonContracting := [1]
  lhsBatch := [0]
  rhsBatch := [0]
  wf := dot_S8x512x8_S8x512x8_S8x512x512_2_2_1_1_0_0_wf

abbrev win0_0 : Pipeline.Window sig grid0 :=
  Pipeline.Window.ofSpec (Memref.whole main_v11) S8x512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.BitsEntry.lean ====
/-
  The printed kernel's program around its one region.

  @main is 21 host operations (the squared norms, the constant columns and the two concatenations that build the
  augmented clouds `[|p|², 1, −2p, 0]` and `[1, |t|², t, 0]`), the region, and 15 host operations (the means). This
  module names the buffers' contents when the region is entered (`V0`: the launch contents after the first 21
  operations), states @main's shape around the region, checks that the last 15 operations touch only unscoped
  buffers, allocate nothing and write none of the region's four arrays, and reads the two argument arrays off the
  run's final state (no operation and no window writes them). It also names each window's block at a grid point
  and puts the body's two branch conditions in closed form over the 2 × 8 × 8 grid, point `t = 64·bt + 8·nt + mt`:
  the first holds iff `mt = 0` (`t % 8 = 0`), the second iff `nt = 0` and `mt = 0` (`t % 64 = 0`).
-/
import proofs.«115503_j26963804685126_2_alg».proof.Proof.Gen.Kernel.Launch
import proofs.«115503_j26963804685126_2_alg».proof.Proof.Gen.Kernel.Skeleton
import proofs.«115503_j26963804685126_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the 21 host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, the second stretch: it reduces to the region
    continued by the second stretch, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Nor does one after it, and no window stages them: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's post read at the two argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- The first conditional's condition (the running minimum over a row of tiles is reset), from the grid coordinates. -/
abbrev cond0_0 (i : grid0.Coords) : Prop :=
  (Scalar.cmpi .ne (Scalar.extui (Scalar.cmpi .eq (BitVec.ofNat 32 (i 2).val) 0#32)) 0#32) = 1#1
/-- It holds exactly at the first tile of each row of tiles. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (the resident column minima are reset), from the grid coordinates. -/
abbrev cond0_1 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first point of each batch chunk. -/
theorem hcond0_1 : ∀ t : Fin cfg0.N, cond0_1 (grid0.coords t) ↔ t.val % 64 = 0 :=
  (by decide +kernel : ∀ t : Fin grid0.N, cond0_1 (grid0.coords t) ↔ t.val % 64 = 0)

/-! ## The staging memrefs at a point -/

abbrev ms0_0 (t : Fin cfg0.N) : Memref sig .tc .vmem S8x512x8 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S8x512x8 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S8x512 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S8x4096 .f32 := win0_3.stage (cfg0.slots t 3)
abbrev hs0_3 (t : Fin cfg0.N) : (ms0_3 t).IsWhole := Facts₀.hstage0_3 ((cfg0.slots t 3).cast Facts₀.nbuf0_3)

end Cert.Kernel.Fr

end
-- ==== Proof.BitsRunA.lean ====
/-
  The kernel body at a point where BOTH resets fire (the first point of a batch chunk, `t % 64 = 0`).

  On whole staging buffers — the two input blocks at their contents, the two outputs at anything — the body runs
  to its end, leaving the inputs as they were and each output's buffer with a list of stored pieces (newest first):
  the row minima's buffer is filled with +∞ and then stored whole with the minimum of what it holds and this
  tile's row minima; the resident column minima's buffer is filled with +∞ and then its 512 columns at offset
  `512·mt` are stored with the minimum of what they hold and this tile's column minima. The piece lists are
  determined when this statement is checked; later modules read them.
-/
import proofs.«115503_j26963804685126_2_alg».proof.Proof.BitsEntry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i)
    (x0 : Vec F S8x512x8 .f32) (x1 : Vec F S8x512x8 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Fr

end
-- ==== Proof.BitsRunB.lean ====
/-
  The kernel body at a point where only the ROW reset fires (the first tile of a row of tiles that is not the
  first of its batch chunk: `t % 8 = 0`, `t % 64 ≠ 0`).

  As in the first case for the row minima's buffer (filled with +∞, then stored whole). The resident column
  minima's buffer is NOT reset: it is handed over at known contents `xo3` (what the point before left) and only
  its 512 columns at offset `512·mt` are stored, with the minimum of what they held and this tile's column
  minima; every other column keeps what it held. So that buffer is returned at `xo3` with the one stored piece
  written over it.
-/
import proofs.«115503_j26963804685126_2_alg».proof.Proof.BitsRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i)
    (x0 : Vec F S8x512x8 .f32) (x1 : Vec F S8x512x8 .f32) (xo3 : Vec F S8x4096 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Fr

end
-- ==== Proof.BitsRunC.lean ====
/-
  The kernel body at a point where NO reset fires (`t % 8 ≠ 0`: a later tile of a row of tiles).

  Both output buffers are handed over at known contents (what the point before left): the row minima's buffer
  `xo2` is loaded and stored whole with the minimum of `xo2` and this tile's row minima; the resident column
  minima's buffer `xo3` has its 512 columns at offset `512·mt` stored with the minimum of what they held and
  this tile's column minima, every other column keeping what it held.
-/
import proofs.«115503_j26963804685126_2_alg».proof.Proof.BitsRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i)
    (x0 : Vec F S8x512x8 .f32) (x1 : Vec F S8x512x8 .f32) (xo2 : Vec F S8x512 .f32) (xo3 : Vec F S8x4096 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Fr

end
-- ==== Proof.BitsFrame.lean ====
/-
  The printed kernel's frame, and what its two output arrays hold at the end as named terms.

  A grid point is `t = 64·bt + 8·nt + mt`. Three cases of the body's two conditionals occur: both resets
  (`t % 64 = 0`), the row reset only (`t % 8 = 0`, `t % 64 ≠ 0`), no reset (`t % 8 ≠ 0`). Per case this module
  names what the body leaves in the row-minima buffer and in the resident column-minima buffer — the case's stored
  pieces read back, over junk where a whole-buffer store lies beneath them, over the buffer's previous contents where
  only 512 columns are stored — and `outsAt0` chains the cases along the grid: the row-minima buffer carries over
  within a row of tiles (it is written back after the last tile, `t % 8 = 7`), the column-minima buffer within a
  batch chunk (written back at `t % 64 = 63`). With these as proof data the body obligation holds at every point,
  so every weakly fair execution of @main terminates without a fault, and the argument arrays end unchanged.
-/
import proofs.«115503_j26963804685126_2_alg».proof.Proof.BitsRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO0_2 : View sig .tc .vmem S8x512 .f32 := (Memref.whole cc0_stg2_0 : Memref sig .tc .vmem S8x512 .f32).view
abbrev VO0_3 : View sig .tc .vmem S8x4096 .f32 := (Memref.whole cc0_stg3_0 : Memref sig .tc .vmem S8x4096 .f32).view

/-! ## What each case leaves -/

/-- Both resets: each buffer's pieces include a store of the whole buffer, so they cover it. -/
theorem cover0_A_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) (y : S8x512.Idx) :
    ∃ pc ∈ (kernelRun0_A c i arg3 harg3 arg4 harg4 arg5 harg5 arg6 harg6 hc0 hc1 x0 x1).1, y ∈ pc.1.set :=
  View.cover_of_wholeMem _ (by sl_whole_mem) y
theorem cover0_A_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) (y : S8x4096.Idx) :
    ∃ pc ∈ (kernelRun0_A c i arg3 harg3 arg4 harg4 arg5 harg5 arg6 harg6 hc0 hc1 x0 x1).2.1, y ∈ pc.1.set :=
  View.cover_of_wholeMem _ (by sl_whole_mem) y
def out0_A_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) : Vec F S8x512 .f32 :=
  VO0_2.read (Elt F) (VO0_2.writes (Elt F) VO0_2.junk (kernelRun0_A c i arg3 harg3 arg4 harg4 arg5 harg5 arg6 harg6 hc0 hc1 x0 x1).1)
def out0_A_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) : Vec F S8x4096 .f32 :=
  VO0_3.read (Elt F) (VO0_3.writes (Elt F) VO0_3.junk (kernelRun0_A c i arg3 harg3 arg4 harg4 arg5 harg5 arg6 harg6 hc0 hc1 x0 x1).2.1)

/-- Row reset only: the row-minima buffer is covered; the column-minima buffer is its previous contents with the
    case's one piece written over them. -/
theorem cover0_B_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) (y : S8x512.Idx) :
    ∃ pc ∈ (kernelRun0_B c i arg3 harg3 arg4 harg4 arg5 harg5 arg6 harg6 hc0 hc1 x0 x1 xo3).1, y ∈ pc.1.set :=
  View.cover_of_wholeMem _ (by sl_whole_mem) y
def out0_B_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) : Vec F S8x512 .f32 :=
  VO0_2.read (Elt F) (VO0_2.writes (Elt F) VO0_2.junk (kernelRun0_B c i arg3 harg3 arg4 harg4 arg5 harg5 arg6 harg6 hc0 hc1 x0 x1 xo3).1)
def out0_B_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) : Vec F S8x4096 .f32 :=
  arg6.view.read (Elt F) (arg6.view.writes (Elt F) (harg6.unread xo3) (kernelRun0_B c i arg3 harg3 arg4 harg4 arg5 harg5 arg6 harg6 hc0 hc1 x0 x1 xo3).2.1)

/-- No reset: likewise, the row-minima buffer's one piece a store of the whole buffer. -/
theorem cover0_C_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) (y : S8x512.Idx) :
    ∃ pc ∈ (kernelRun0_C c i arg3 harg3 arg4 harg4 arg5 harg5 arg6 harg6 hc0 hc1 x0 x1 xo2 xo3).1, y ∈ pc.1.set :=
  View.cover_of_wholeMem _ (by sl_whole_mem) y
def out0_C_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) : Vec F S8x512 .f32 :=
  VO0_2.read (Elt F) (VO0_2.writes (Elt F) VO0_2.junk (kernelRun0_C c i arg3 harg3 arg4 harg4 arg5 harg5 arg6 harg6 hc0 hc1 x0 x1 xo2 xo3).1)
def out0_C_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) : Vec F S8x4096 .f32 :=
  arg6.view.read (Elt F) (arg6.view.writes (Elt F) (harg6.unread xo3) (kernelRun0_C c i arg3 harg3 arg4 harg4 arg5 harg5 arg6 harg6 hc0 hc1 x0 x1 xo2 xo3).2.1)

/-! ## What the outputs' buffers hold after each point -/

theorem mod8_of_mod64 {n : ℕ} (h : n % 64 = 0) : n % 8 = 0 := by omega
theorem not_mod64_of_not_mod8 {n : ℕ} (h : ¬n % 8 = 0) : ¬n % 64 = 0 := by omega

/-- After the body at position `n`: (the row-minima buffer, the column-minima buffer), the case the closed forms select
    run at the point's memrefs and input blocks, a buffer the case reads at what this leaves at `n - 1`. -/
def outsAt0 (c : Dev nD) : (n : ℕ) → n < cfg0.N → Vec F S8x512 .f32 × Vec F S8x4096 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩))
  | n + 1, hn =>
    if h1 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (mod8_of_mod64 h1)) ((hcond0_1 ⟨n + 1, hn⟩).mpr h1) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (mod8_of_mod64 h1)) ((hcond0_1 ⟨n + 1, hn⟩).mpr h1) (iblk m c 0 ⟨n + 1, hn⟩) (iblk m c 1 ⟨n + 1, hn⟩))
    else if h0 : (n + 1) % 8 = 0 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2)
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point where both resets fire. -/
theorem outsAt0_A (c : Dev nD) (t : Fin cfg0.N) (h1 : t.val % 64 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr (mod8_of_mod64 h1)) ((hcond0_1 t).mpr h1) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr (mod8_of_mod64 h1)) ((hcond0_1 t).mpr h1) (iblk m c 0 t) (iblk m c 1 t)) := by
  obtain ⟨n, hn⟩ := t
  cases n with
  | zero => exact rfl
  | succ n => exact (dif_pos h1).trans rfl

/-- At a point where only the row reset fires: over what the point before left in the column-minima buffer. -/
theorem outsAt0_B (c : Dev nD) (t : Fin cfg0.N) (h1 : ¬t.val % 64 = 0) (h0 : t.val % 8 = 0) :
    outsAt0 m c t.val t.isLt =
      (out0_B_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h1); exact absurd (Nat.zero_mod _) h1)
  | succ n => exact (dif_neg h1).trans ((dif_pos h0).trans rfl)

/-- At a point where no reset fires: over what the point before left in both buffers. -/
theorem outsAt0_C (c : Dev nD) (t : Fin cfg0.N) (h0 : ¬t.val % 8 = 0) :
    outsAt0 m c t.val t.isLt =
      (out0_C_2 c (grid0.coords t) (ms0_0 t) (hs0_0 t) (ms0_1 t) (hs0_1 t) (ms0_2 t) (hs0_2 t) (ms0_3 t) (hs0_3 t) (fun h => h0 ((hcond0_0 t).mp h)) (fun h => not_mod64_of_not_mod8 h0 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
       out0_C_3 c (grid0.coords t) (ms0_0 t) (hs0_0 t) (ms0_1 t) (hs0_1 t) (ms0_2 t) (hs0_2 t) (ms0_3 t) (hs0_3 t) (fun h => h0 ((hcond0_0 t).mp h)) (fun h => not_mod64_of_not_mod8 h0 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg (not_mod64_of_not_mod8 h0)).trans ((dif_neg h0).trans rfl)

/-! ## The pipeline's proof data -/

/-- The arrays as the region finds them; after the body at point `t` each input's buffer at its block and the
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Within a row of tiles the row-minima buffer is not written back: it holds what the point before left. -/
theorem before0_2_C (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch chunk the column-minima buffer is not written back: it holds what the point before left. -/
theorem before0_3_BC (c : Dev nD) (t : Fin cfg0.N) (h1 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed forms say which case the point is in; a
    buffer the case reads holds what the point before left; so the case's run applies. The invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h1 : t.val % 64 = 0
  · rw [outsAt0_A m c t h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr (mod8_of_mod64 h1)) ((hcond0_1 t).mpr h1) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    · unfold owns; iexists _; isplitr
      swap; · iexact H3
      ipureintro; exact View.read_writes_of_cover _ _ _ _ _ (cover0_A_3 c _ _ _ _ _ _ _ _ _ _ _ _ _)
  · by_cases h0 : t.val % 8 = 0
    · rw [outsAt0_B m c t h1 h0]
      dsimp only
      simp only [before0_3_BC m c t h1]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h0) (fun h => h1 ((hcond0_1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      · unfold owns; iexists _; isplitr
        swap; · iexact H3
        ipureintro; rfl
    · rw [outsAt0_C m c t h0]
      dsimp only
      simp only [before0_2_C m c t h0, before0_3_BC m c t (not_mod64_of_not_mod8 h0)]
      unfold out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => not_mod64_of_not_mod8 h0 ((hcond0_1 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end each of the region's four arrays holds what the
    library computes from the proof data, and every other unscoped buffer what the last 15 host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.IdealEntry.lean ====
/-
  The idealized kernel's program around its one region.

  @main is 21 host operations (the squared norms, the constant columns and the two concatenations that build the
  augmented clouds `[|p|², 1, −2p, 0]` and `[1, |t|², t, 0]`), the region, and 15 host operations (the means). This
  module names the buffers' contents when the region is entered (`V0`: the launch contents after the first 21
  operations), states @main's shape around the region, checks that the last 15 operations touch only unscoped
  buffers, allocate nothing and write none of the region's four arrays, and reads the two argument arrays off the
  run's final state (no operation and no window writes them). It also names each window's block at a grid point
  and puts the body's two branch conditions in closed form over the 2 × 8 × 8 grid, point `t = 64·bt + 8·nt + mt`:
  the first holds iff `mt = 0` (`t % 8 = 0`), the second iff `nt = 0` and `mt = 0` (`t % 64 = 0`).
-/
import proofs.«115503_j26963804685126_2_alg».proof.Proof.Gen.KernelIdeal.Launch
import proofs.«115503_j26963804685126_2_alg».proof.Proof.Gen.KernelIdeal.Skeleton
import proofs.«115503_j26963804685126_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the 21 host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, the second stretch: it reduces to the region
    continued by the second stretch, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- Nor does one after it, and no window stages them: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched its index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's post read at the two argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- The first conditional's condition (the running minimum over a row of tiles is reset), from the grid coordinates. -/
abbrev cond0_0 (i : grid0.Coords) : Prop :=
  (Scalar.cmpi .ne (Scalar.extui (Scalar.cmpi .eq (BitVec.ofNat 32 (i 2).val) 0#32)) 0#32) = 1#1
/-- It holds exactly at the first tile of each row of tiles. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (the resident column minima are reset), from the grid coordinates. -/
abbrev cond0_1 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first point of each batch chunk. -/
theorem hcond0_1 : ∀ t : Fin cfg0.N, cond0_1 (grid0.coords t) ↔ t.val % 64 = 0 :=
  (by decide +kernel : ∀ t : Fin grid0.N, cond0_1 (grid0.coords t) ↔ t.val % 64 = 0)

/-! ## The staging memrefs at a point -/

abbrev ms0_0 (t : Fin cfg0.N) : Memref sig .tc .vmem S8x512x8 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S8x512x8 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S8x512 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S8x4096 .f32 := win0_3.stage (cfg0.slots t 3)
abbrev hs0_3 (t : Fin cfg0.N) : (ms0_3 t).IsWhole := Facts₀.hstage0_3 ((cfg0.slots t 3).cast Facts₀.nbuf0_3)

end Cert.KernelIdeal.Fr

end
-- ==== Proof.IdealRunA.lean ====
/-
  The kernel body at a point where BOTH resets fire (the first point of a batch chunk, `t % 64 = 0`).

  On whole staging buffers — the two input blocks at their contents, the two outputs at anything — the body runs
  to its end, leaving the inputs as they were and each output's buffer with a list of stored pieces (newest first):
  the row minima's buffer is filled with +∞ and then stored whole with the minimum of what it holds and this
  tile's row minima; the resident column minima's buffer is filled with +∞ and then its 512 columns at offset
  `512·mt` are stored with the minimum of what they hold and this tile's column minima. The piece lists are
  determined when this statement is checked; later modules read them.
-/
import proofs.«115503_j26963804685126_2_alg».proof.Proof.IdealEntry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i)
    (x0 : Vec F S8x512x8 .f32) (x1 : Vec F S8x512x8 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Fr

end
-- ==== Proof.IdealRunB.lean ====
/-
  The kernel body at a point where only the ROW reset fires (the first tile of a row of tiles that is not the
  first of its batch chunk: `t % 8 = 0`, `t % 64 ≠ 0`).

  As in the first case for the row minima's buffer (filled with +∞, then stored whole). The resident column
  minima's buffer is NOT reset: it is handed over at known contents `xo3` (what the point before left) and only
  its 512 columns at offset `512·mt` are stored, with the minimum of what they held and this tile's column
  minima; every other column keeps what it held. So that buffer is returned at `xo3` with the one stored piece
  written over it.
-/
import proofs.«115503_j26963804685126_2_alg».proof.Proof.IdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i)
    (x0 : Vec F S8x512x8 .f32) (x1 : Vec F S8x512x8 .f32) (xo3 : Vec F S8x4096 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Fr

end
-- ==== Proof.IdealRunC.lean ====
/-
  The kernel body at a point where NO reset fires (`t % 8 ≠ 0`: a later tile of a row of tiles).

  Both output buffers are handed over at known contents (what the point before left): the row minima's buffer
  `xo2` is loaded and stored whole with the minimum of `xo2` and this tile's row minima; the resident column
  minima's buffer `xo3` has its 512 columns at offset `512·mt` stored with the minimum of what they held and
  this tile's column minima, every other column keeping what it held.
-/
import proofs.«115503_j26963804685126_2_alg».proof.Proof.IdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i)
    (x0 : Vec F S8x512x8 .f32) (x1 : Vec F S8x512x8 .f32) (xo2 : Vec F S8x512 .f32) (xo3 : Vec F S8x4096 .f32) :
    Σ' (L2 : List (View.Piece (Elt F) S8x512 .f32)), { L3 : List (View.Piece (Elt F) S8x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Fr

end
-- ==== Proof.IdealFrame.lean ====
/-
  The idealized kernel's frame, and what its two output arrays hold at the end as named terms.

  A grid point is `t = 64·bt + 8·nt + mt`. Three cases of the body's two conditionals occur: both resets
  (`t % 64 = 0`), the row reset only (`t % 8 = 0`, `t % 64 ≠ 0`), no reset (`t % 8 ≠ 0`). Per case this module
  names what the body leaves in the row-minima buffer and in the resident column-minima buffer — the case's stored
  pieces read back, over junk where a whole-buffer store lies beneath them, over the buffer's previous contents where
  only 512 columns are stored — and `outsAt0` chains the cases along the grid: the row-minima buffer carries over
  within a row of tiles (it is written back after the last tile, `t % 8 = 7`), the column-minima buffer within a
  batch chunk (written back at `t % 64 = 63`). With these as proof data the body obligation holds at every point,
  so every weakly fair execution of @main terminates without a fault, and the argument arrays end unchanged.
-/
import proofs.«115503_j26963804685126_2_alg».proof.Proof.IdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO0_2 : View sig .tc .vmem S8x512 .f32 := (Memref.whole cc0_stg2_0 : Memref sig .tc .vmem S8x512 .f32).view
abbrev VO0_3 : View sig .tc .vmem S8x4096 .f32 := (Memref.whole cc0_stg3_0 : Memref sig .tc .vmem S8x4096 .f32).view

/-! ## What each case leaves -/

/-- Both resets: each buffer's pieces include a store of the whole buffer, so they cover it. -/
theorem cover0_A_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) (y : S8x512.Idx) :
    ∃ pc ∈ (kernelRun0_A c i arg3 harg3 arg4 harg4 arg5 harg5 arg6 harg6 hc0 hc1 x0 x1).1, y ∈ pc.1.set :=
  View.cover_of_wholeMem _ (by sl_whole_mem) y
theorem cover0_A_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) (y : S8x4096.Idx) :
    ∃ pc ∈ (kernelRun0_A c i arg3 harg3 arg4 harg4 arg5 harg5 arg6 harg6 hc0 hc1 x0 x1).2.1, y ∈ pc.1.set :=
  View.cover_of_wholeMem _ (by sl_whole_mem) y
def out0_A_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) : Vec F S8x512 .f32 :=
  VO0_2.read (Elt F) (VO0_2.writes (Elt F) VO0_2.junk (kernelRun0_A c i arg3 harg3 arg4 harg4 arg5 harg5 arg6 harg6 hc0 hc1 x0 x1).1)
def out0_A_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) : Vec F S8x4096 .f32 :=
  VO0_3.read (Elt F) (VO0_3.writes (Elt F) VO0_3.junk (kernelRun0_A c i arg3 harg3 arg4 harg4 arg5 harg5 arg6 harg6 hc0 hc1 x0 x1).2.1)

/-- Row reset only: the row-minima buffer is covered; the column-minima buffer is its previous contents with the
    case's one piece written over them. -/
theorem cover0_B_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) (y : S8x512.Idx) :
    ∃ pc ∈ (kernelRun0_B c i arg3 harg3 arg4 harg4 arg5 harg5 arg6 harg6 hc0 hc1 x0 x1 xo3).1, y ∈ pc.1.set :=
  View.cover_of_wholeMem _ (by sl_whole_mem) y
def out0_B_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) : Vec F S8x512 .f32 :=
  VO0_2.read (Elt F) (VO0_2.writes (Elt F) VO0_2.junk (kernelRun0_B c i arg3 harg3 arg4 harg4 arg5 harg5 arg6 harg6 hc0 hc1 x0 x1 xo3).1)
def out0_B_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) : Vec F S8x4096 .f32 :=
  arg6.view.read (Elt F) (arg6.view.writes (Elt F) (harg6.unread xo3) (kernelRun0_B c i arg3 harg3 arg4 harg4 arg5 harg5 arg6 harg6 hc0 hc1 x0 x1 xo3).2.1)

/-- No reset: likewise, the row-minima buffer's one piece a store of the whole buffer. -/
theorem cover0_C_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) (y : S8x512.Idx) :
    ∃ pc ∈ (kernelRun0_C c i arg3 harg3 arg4 harg4 arg5 harg5 arg6 harg6 hc0 hc1 x0 x1 xo2 xo3).1, y ∈ pc.1.set :=
  View.cover_of_wholeMem _ (by sl_whole_mem) y
def out0_C_2 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) : Vec F S8x512 .f32 :=
  VO0_2.read (Elt F) (VO0_2.writes (Elt F) VO0_2.junk (kernelRun0_C c i arg3 harg3 arg4 harg4 arg5 harg5 arg6 harg6 hc0 hc1 x0 x1 xo2 xo3).1)
def out0_C_3 (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) : Vec F S8x4096 .f32 :=
  arg6.view.read (Elt F) (arg6.view.writes (Elt F) (harg6.unread xo3) (kernelRun0_C c i arg3 harg3 arg4 harg4 arg5 harg5 arg6 harg6 hc0 hc1 x0 x1 xo2 xo3).2.1)

/-! ## What the outputs' buffers hold after each point -/

theorem mod8_of_mod64 {n : ℕ} (h : n % 64 = 0) : n % 8 = 0 := by omega
theorem not_mod64_of_not_mod8 {n : ℕ} (h : ¬n % 8 = 0) : ¬n % 64 = 0 := by omega

/-- After the body at position `n`: (the row-minima buffer, the column-minima buffer), the case the closed forms select
    run at the point's memrefs and input blocks, a buffer the case reads at what this leaves at `n - 1`. -/
def outsAt0 (c : Dev nD) : (n : ℕ) → n < cfg0.N → Vec F S8x512 .f32 × Vec F S8x4096 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩))
  | n + 1, hn =>
    if h1 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (mod8_of_mod64 h1)) ((hcond0_1 ⟨n + 1, hn⟩).mpr h1) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (mod8_of_mod64 h1)) ((hcond0_1 ⟨n + 1, hn⟩).mpr h1) (iblk m c 0 ⟨n + 1, hn⟩) (iblk m c 1 ⟨n + 1, hn⟩))
    else if h0 : (n + 1) % 8 = 0 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2)
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point where both resets fire. -/
theorem outsAt0_A (c : Dev nD) (t : Fin cfg0.N) (h1 : t.val % 64 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr (mod8_of_mod64 h1)) ((hcond0_1 t).mpr h1) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr (mod8_of_mod64 h1)) ((hcond0_1 t).mpr h1) (iblk m c 0 t) (iblk m c 1 t)) := by
  obtain ⟨n, hn⟩ := t
  cases n with
  | zero => exact rfl
  | succ n => exact (dif_pos h1).trans rfl

/-- At a point where only the row reset fires: over what the point before left in the column-minima buffer. -/
theorem outsAt0_B (c : Dev nD) (t : Fin cfg0.N) (h1 : ¬t.val % 64 = 0) (h0 : t.val % 8 = 0) :
    outsAt0 m c t.val t.isLt =
      (out0_B_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h1); exact absurd (Nat.zero_mod _) h1)
  | succ n => exact (dif_neg h1).trans ((dif_pos h0).trans rfl)

/-- At a point where no reset fires: over what the point before left in both buffers. -/
theorem outsAt0_C (c : Dev nD) (t : Fin cfg0.N) (h0 : ¬t.val % 8 = 0) :
    outsAt0 m c t.val t.isLt =
      (out0_C_2 c (grid0.coords t) (ms0_0 t) (hs0_0 t) (ms0_1 t) (hs0_1 t) (ms0_2 t) (hs0_2 t) (ms0_3 t) (hs0_3 t) (fun h => h0 ((hcond0_0 t).mp h)) (fun h => not_mod64_of_not_mod8 h0 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
       out0_C_3 c (grid0.coords t) (ms0_0 t) (hs0_0 t) (ms0_1 t) (hs0_1 t) (ms0_2 t) (hs0_2 t) (ms0_3 t) (hs0_3 t) (fun h => h0 ((hcond0_0 t).mp h)) (fun h => not_mod64_of_not_mod8 h0 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg (not_mod64_of_not_mod8 h0)).trans ((dif_neg h0).trans rfl)

/-! ## The pipeline's proof data -/

/-- The arrays as the region finds them; after the body at point `t` each input's buffer at its block and the
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Within a row of tiles the row-minima buffer is not written back: it holds what the point before left. -/
theorem before0_2_C (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch chunk the column-minima buffer is not written back: it holds what the point before left. -/
theorem before0_3_BC (c : Dev nD) (t : Fin cfg0.N) (h1 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed forms say which case the point is in; a
    buffer the case reads holds what the point before left; so the case's run applies. The invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h1 : t.val % 64 = 0
  · rw [outsAt0_A m c t h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr (mod8_of_mod64 h1)) ((hcond0_1 t).mpr h1) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    · unfold owns; iexists _; isplitr
      swap; · iexact H3
      ipureintro; exact View.read_writes_of_cover _ _ _ _ _ (cover0_A_3 c _ _ _ _ _ _ _ _ _ _ _ _ _)
  · by_cases h0 : t.val % 8 = 0
    · rw [outsAt0_B m c t h1 h0]
      dsimp only
      simp only [before0_3_BC m c t h1]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h0) (fun h => h1 ((hcond0_1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      · unfold owns; iexists _; isplitr
        swap; · iexact H3
        ipureintro; rfl
    · rw [outsAt0_C m c t h0]
      dsimp only
      simp only [before0_2_C m c t h0, before0_3_BC m c t (not_mod64_of_not_mod8 h0)]
      unfold out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => not_mod64_of_not_mod8 h0 ((hcond0_1 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end each of the region's four arrays holds what the
    library computes from the proof data, and every other unscoped buffer what the last 15 host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.IdealPieces.lean ====
/-
  What each case of the body leaves in the two output buffers, read off the stored pieces.

  The row-minima buffer always ends at ONE payload: the minimum of what the body loaded from it and this tile's
  row minima — loaded after the +∞ fill at a row reset, so the minimum with +∞ there. The resident column-minima
  buffer is stored only on the point's 512 columns (offset `512·mt`): there it ends at the minimum of what those
  columns held and this tile's column minima; every other column keeps what it held — the +∞ fill at a batch
  chunk's first point, else the previous contents.
-/
import proofs.«115503_j26963804685126_2_alg».proof.Proof.IdealFrame
import Idealize.ShloMosaic.Lib.WritesUnit
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-- No reset: the row-minima buffer ends at the minimum of what it held and the tile's row minima. -/
theorem out0_C_2_eq (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32) :
    out0_C_2 c i arg3 harg3 arg4 harg4 arg5 harg5 arg6 harg6 hc0 hc1 x0 x1 xo2 xo3 = k0_pay3 x0 x1 xo2 := by
  unfold out0_C_2
  rw [View.read_writes_junk_eq_canon]
  unfold kernelRun0_C
  dsimp only
  rw [View.canon_unit_zero hz2]
  simp only [View.readAt_eq_ld, harg3.read_unread, harg4.read_unread, harg5.read_unread,
    View.ld_unit_zero (S := S8x512x8) hz3, View.ld_unit_zero (S := S8x512) hz2]

/-- No reset: on the point's 512 columns the column-minima buffer ends at the minimum of what they held and the tile's
    column minima; every other column keeps what it held. -/
theorem out0_C_3_at (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : ¬cond0_0 i) (hc1 : ¬cond0_1 i) (x0 x1 : Vec F S8x512x8 .f32) (xo2 : Vec F S8x512 .f32) (xo3 : Vec F S8x4096 .f32)
    (y : S8x4096.Idx) (off' : Fin 2 → ℕ) (heq : k0_off1 i = off') :
    out0_C_3 c i arg3 harg3 arg4 harg4 arg5 harg5 arg6 harg6 hc0 hc1 x0 x1 xo2 xo3 y
      = if h : ∀ a, off' a ≤ (y a).val ∧ (y a).val < off' a + S8x512.size a then
          k0_pay5 x0 x1 (View.ld xo3 (Rect.unit (k0_off1 i) S8x512.size (Facts₀.k0_off1_inb i))) (Rect.unitLocal (s := S8x4096) (off := off') (size := S8x512.size) y h)
        else xo3 y := by
  unfold out0_C_3
  unfold kernelRun0_C
  dsimp only
  rw [View.read_writes_cons_unit _ _ _ _ _ y heq]
  simp only [View.readAt_eq_ld, harg3.read_unread, harg4.read_unread, View.ld_unit_zero (S := S8x512x8) hz3, harg6.read_unread, View.writes_nil]

/-- Row reset only: the row-minima buffer is filled with +∞ and then ends at the minimum of that and the tile's row minima. -/
theorem out0_B_2_eq (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32) :
    out0_B_2 c i arg3 harg3 arg4 harg4 arg5 harg5 arg6 harg6 hc0 hc1 x0 x1 xo3 = k0_pay3 x0 x1 (k0_pay2 (F := F)) := by
  unfold out0_B_2
  rw [View.read_writes_junk_eq_canon]
  unfold kernelRun0_B
  dsimp only
  sl_unfold_words
  rw [View.canon_cons_unit_zero hz2]
  simp only [View.readAt_eq_ld, harg3.read_unread, harg4.read_unread, View.ld_unit_zero (S := S8x512x8) hz3, View.readCov_unit_zero (S := S8x512) _ hz2]

/-- Row reset only: the column-minima buffer, as when no reset fires. -/
theorem out0_B_3_at (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : ¬cond0_1 i) (x0 x1 : Vec F S8x512x8 .f32) (xo3 : Vec F S8x4096 .f32)
    (y : S8x4096.Idx) (off' : Fin 2 → ℕ) (heq : k0_off1 i = off') :
    out0_B_3 c i arg3 harg3 arg4 harg4 arg5 harg5 arg6 harg6 hc0 hc1 x0 x1 xo3 y
      = if h : ∀ a, off' a ≤ (y a).val ∧ (y a).val < off' a + S8x512.size a then
          k0_pay5 x0 x1 (View.ld xo3 (Rect.unit (k0_off1 i) S8x512.size (Facts₀.k0_off1_inb i))) (Rect.unitLocal (s := S8x4096) (off := off') (size := S8x512.size) y h)
        else xo3 y := by
  unfold out0_B_3
  unfold kernelRun0_B
  dsimp only
  rw [View.read_writes_cons_unit _ _ _ _ _ y heq]
  simp only [View.readAt_eq_ld, harg3.read_unread, harg4.read_unread, View.ld_unit_zero (S := S8x512x8) hz3, harg6.read_unread, View.writes_nil]

/-- Both resets: the row-minima buffer, as at a row reset. -/
theorem out0_A_2_eq (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32) :
    out0_A_2 c i arg3 harg3 arg4 harg4 arg5 harg5 arg6 harg6 hc0 hc1 x0 x1 = k0_pay3 x0 x1 (k0_pay2 (F := F)) := by
  unfold out0_A_2
  rw [View.read_writes_junk_eq_canon]
  unfold kernelRun0_A
  dsimp only
  sl_unfold_words
  rw [View.canon_cons_unit_zero hz2]
  simp only [View.readAt_eq_ld, harg3.read_unread, harg4.read_unread, View.ld_unit_zero (S := S8x512x8) hz3, View.readCov_unit_zero (S := S8x512) _ hz2]

/-- Both resets: the column-minima buffer is filled with +∞; the point's 512 columns then end at the minimum of that
    and the tile's column minima, every other column stays +∞. -/
theorem out0_A_3_at (c : Dev nD) (i : grid0.Coords) (arg3 : Memref sig .tc .vmem S8x512x8 .f32) (harg3 : arg3.IsWhole) (arg4 : Memref sig .tc .vmem S8x512x8 .f32) (harg4 : arg4.IsWhole) (arg5 : Memref sig .tc .vmem S8x512 .f32) (harg5 : arg5.IsWhole) (arg6 : Memref sig .tc .vmem S8x4096 .f32) (harg6 : arg6.IsWhole) (hc0 : cond0_0 i) (hc1 : cond0_1 i) (x0 x1 : Vec F S8x512x8 .f32)
    (y : S8x4096.Idx) (off' : Fin 2 → ℕ) (heq : k0_off1 i = off') :
    out0_A_3 c i arg3 harg3 arg4 harg4 arg5 harg5 arg6 harg6 hc0 hc1 x0 x1 y
      = if h : ∀ a, off' a ≤ (y a).val ∧ (y a).val < off' a + S8x512.size a then
          k0_pay5 x0 x1 (View.ld (k0_pay4 (F := F) : S8x4096.Idx → Elt F .f32) (Rect.unit (s := S8x4096) (k0_off1 i) S8x512.size (Facts₀.k0_off1_inb i))) (Rect.unitLocal (s := S8x4096) (off := off') (size := S8x512.size) y h)
        else k0_pay4 (F := F) y := by
  unfold out0_A_3
  unfold kernelRun0_A
  dsimp only
  unfold kernelRun0_A.sl.H3_1
  rw [View.read_writes_cons_unit _ _ _ _ _ y heq]
  simp only [View.readAt_eq_ld, harg3.read_unread, harg4.read_unread, View.ld_unit_zero (S := S8x512x8) hz3, View.read_writes_junk_eq_canon, View.canon_unit_zero (S := S8x4096) hz2]

end Cert.KernelIdeal.Fr

end
-- ==== Proof.Spec.lean ====
/-
  The chamfer distance, as ONE function of the two point clouds.

  For clouds `x y : [16, 4096, 3]` (batch, point, coordinate) over the extended reals:
  * `sq x b n`   — the squared norm of point `n` of batch `b`, a sum of three squares onto the zero word;
  * `dot x y b n m` — the inner product of point `n` of `x` with point `m` of `y`;
  * `dist x y b n m = (sq x b n + sq y b m) − 2 · dot x y b n m` — the squared distance, expanded;
  * `nearX x y` at `(b, n)` — the infimum of `dist` over the points `m` of `y` (nearest neighbour of a point of `x`);
  * `nearY x y` at `(b, m)` — the infimum over the points `n` of `x`;
  * `meanTail` — the two row means added and averaged over the batch, exactly the host operations both
    programs end with (so the two results are equal as soon as the two pairs of nearest-neighbour arrays are).
  Float literals stay words (`Ideal.ofBits`): the same word on both sides is never evaluated.
-/
import Idealize.ShloMosaic.PureOps
import Idealize.ShloMosaic.PureOps.Ideal
import Idealize.ShloMosaic.Lib.ValueIdx

noncomputable section

namespace Chamfer

open Idealize.ShloMosaic Idealize.ShloMosaic.ValueIdx
open scoped BigOperators

abbrev Pts : Shape := ⟨3, ![16, 4096, 3]⟩
abbrev Mat : Shape := ⟨2, ![16, 4096]⟩
abbrev Row : Shape := ⟨1, ![16]⟩
abbrev Sc : Shape := ⟨0, ![]⟩

/-- Squared norm of point `n` of batch `b`: three squares summed onto the zero word. -/
def sq (x : Pts.Idx → EReal) (b : Fin 16) (n : Fin 4096) : EReal :=
  Ideal.ofBits .f32 0x00000000#32 + ∑ k : Fin 3, x (ix3 b n k) * x (ix3 b n k)

/-- Inner product of point `n` of `x` with point `m` of `y`, batch `b`. -/
def dot (x y : Pts.Idx → EReal) (b : Fin 16) (n m : Fin 4096) : EReal :=
  ∑ k : Fin 3, x (ix3 b n k) * y (ix3 b m k)

/-- Squared distance, expanded: `|p|² + |t|² − 2 p·t` (the literal is the word of 2.0). -/
def dist (x y : Pts.Idx → EReal) (b : Fin 16) (n m : Fin 4096) : EReal :=
  (sq x b n + sq y b m) - Ideal.ofBits .f32 0x40000000#32 * dot x y b n m

/-- For each point of `x`, the least squared distance to a point of `y`. -/
def nearX (x y : Pts.Idx → EReal) : Mat.Idx → EReal :=
  fun i => Finset.univ.inf fun m : Fin 4096 => dist x y (i 0) (i 1) m

/-- For each point of `y`, the least squared distance to a point of `x`. -/
def nearY (x y : Pts.Idx → EReal) : Mat.Idx → EReal :=
  fun i => Finset.univ.inf fun n : Fin 4096 => dist x y (i 0) n (i 1)

/-- The host lines both programs end with: each array's row sums divided by 4096, the two rows added, the
    sum over the batch divided by 16. The shape facts are arguments (each program states its own). -/
def meanTail (hr : Mat.ReducesTo [1] Row) (h0 : 0 < Sc.numel) (hb : Sc.BroadcastsInDim Row (![] : Fin 0 → Fin Row.rank))
    (hs : Row.ReducesTo [0] Sc) (cx cy : FVec Ideal Mat .f32) : FVec Ideal Sc .f32 :=
  Host.divf (F := Ideal)
    (Host.reduceAdd (F := Ideal)
      (addf (F := Ideal)
        (Host.divf (F := Ideal) (Host.reduceAdd (F := Ideal) cx (constant (F := Ideal) Sc .f32 0x00000000#32) hr h0)
          (broadcastInDim Row ![] hb (constant (F := Ideal) Sc .f32 0x45800000#32)))
        (Host.divf (F := Ideal) (Host.reduceAdd (F := Ideal) cy (constant (F := Ideal) Sc .f32 0x00000000#32) hr h0)
          (broadcastInDim Row ![] hb (constant (F := Ideal) Sc .f32 0x45800000#32))))
      (constant (F := Ideal) Sc .f32 0x00000000#32) hs h0)
    (constant (F := Ideal) Sc .f32 0x41800000#32)

end Chamfer

end
-- ==== Proof.Augment.lean ====
import proofs.«115503_j26963804685126_2_alg».proof.KernelIdeal
import proofs.«115503_j26963804685126_2_alg».proof.Proof.Gen.KernelIdeal
import proofs.«115503_j26963804685126_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

/-
  The two augmented clouds and the law that makes one 8-term contraction a squared distance.

  From a cloud p : [16, 4096, 3] the program lays four pieces end to end along the last axis into [16, 4096, 8]:
    A(p) = [ |p|² , 1 , −2·p , 0 0 0 ]        B(t) = [ 1 , |t|² , t , 0 0 0 ]
  so that, column by column,
    Σ_{k<8} A(p)(b,n,k) · B(t)(b,m,k) = |p|²·1 + 1·|t|² + Σ_{c<3} (−2·p_c)·t_c + 0
                                       = (|p|² + |t|²) − 2·(p · t),
  the squared distance of the specification. The last step distributes −2 over a sum and needs the six
  coordinates finite: over the extended reals the identity fails at an infinite coordinate.
-/

noncomputable section

namespace Cert.KernelIdeal.Aug

open Cert.KernelIdeal Cert.KernelIdeal.Facts₀ Idealize.ShloMosaic Idealize.ShloMosaic.ValueIdx
open scoped BigOperators

/-- The first augmented cloud: [ |p|² , 1 , −2·p , 0 0 0 ] along the last axis. -/
def augATerm (a0 : FVec Ideal S16x4096x3 .f32) : FVec Ideal S16x4096x8 .f32 :=
  concatenate S16x4096x8 2
    [⟨S16x4096x1, broadcastInDim S16x4096x1 ![0, 1] bcast_S16x4096_S16x4096x1_0_1
        (Host.reduceAdd (F := Ideal) (mulf (F := Ideal) a0 a0) (constant (F := Ideal) S_ .f32 0x00000000#32)
          reducesTo_S16x4096x3_S16x4096_d2 h_S_)⟩,
     ⟨S16x4096x1, broadcastInDim S16x4096x1 ![] bcast_S_S16x4096x1 (constant (F := Ideal) S_ .f32 0x3F800000#32)⟩,
     ⟨S16x4096x3, mulf (F := Ideal)
        (broadcastInDim S16x4096x3 ![] bcast_S_S16x4096x3 (constant (F := Ideal) S_ .f32 0xC0000000#32)) a0⟩,
     ⟨S16x4096x3, broadcastInDim S16x4096x3 ![] bcast_S_S16x4096x3 (constant (F := Ideal) S_ .f32 0x00000000#32)⟩]
    concatenates_S16x4096x1_S16x4096x1_S16x4096x3_S16x4096x3_S16x4096x8_d2

/-- The second augmented cloud: [ 1 , |t|² , t , 0 0 0 ] along the last axis. -/
def augBTerm (a1 : FVec Ideal S16x4096x3 .f32) : FVec Ideal S16x4096x8 .f32 :=
  concatenate S16x4096x8 2
    [⟨S16x4096x1, broadcastInDim S16x4096x1 ![] bcast_S_S16x4096x1 (constant (F := Ideal) S_ .f32 0x3F800000#32)⟩,
     ⟨S16x4096x1, broadcastInDim S16x4096x1 ![0, 1] bcast_S16x4096_S16x4096x1_0_1
        (Host.reduceAdd (F := Ideal) (mulf (F := Ideal) a1 a1) (constant (F := Ideal) S_ .f32 0x00000000#32)
          reducesTo_S16x4096x3_S16x4096_d2 h_S_)⟩,
     ⟨S16x4096x3, a1⟩,
     ⟨S16x4096x3, broadcastInDim S16x4096x3 ![] bcast_S_S16x4096x3 (constant (F := Ideal) S_ .f32 0x00000000#32)⟩]
    concatenates_S16x4096x1_S16x4096x1_S16x4096x3_S16x4096x3_S16x4096x8_d2

/-! ## The pieces read at an index -/

/-- The broadcast squared norms at (b, n, 0): three squares summed onto the zero word. -/
theorem sqPiece_at (x : FVec Ideal S16x4096x3 .f32) (b : Fin 16) (n : Fin 4096) (c : Fin 1) :
    broadcastInDim S16x4096x1 ![0, 1] bcast_S16x4096_S16x4096x1_0_1
        (Host.reduceAdd (F := Ideal) (mulf (F := Ideal) x x) (constant (F := Ideal) S_ .f32 0x00000000#32)
          reducesTo_S16x4096x3_S16x4096_d2 h_S_) (ix3 b n c) = Chamfer.sq x b n := by
  rw [broadcastInDim_apply _ _ _ _ (ix2 b n) (fun a => by match a with | ⟨0, _⟩ => rfl | ⟨1, _⟩ => rfl)]
  simp only [Host.reduceAdd, Ideal.hostReduceAdd_def]
  rw [Ideal.hostReduceAdd_single reducesTo_S16x4096x3_S16x4096_d2 (by decide)]
  unfold Chamfer.sq
  refine congrArg (_ + ·) (Finset.sum_congr rfl fun k _ => ?_)
  have e : (by decide : S16x4096x3.Reduces [2] S16x4096).lift (ix2 b n) k = ix3 b n k :=
    funext fun a => Fin.ext (by match a with | ⟨0, _⟩ => rfl | ⟨1, _⟩ => rfl | ⟨2, _⟩ => rfl)
  rw [e]
  rfl

/-- A scalar word broadcast to a whole array reads that word everywhere. -/
theorem splat_at {T : Shape} (h : S_.BroadcastsInDim T ![]) (w : BitVec 32) (j : T.Idx) :
    broadcastInDim T ![] h (constant (F := Ideal) S_ .f32 w) j = Ideal.ofBits .f32 w := by
  rw [broadcastInDim_scalar_apply]
  rfl

/-! ## The first augmented cloud, column by column -/

/-- Column 0 of the first cloud is the squared norm. -/
theorem augA_col0 (a0 : FVec Ideal S16x4096x3 .f32) (b : Fin 16) (n : Fin 4096) :
    augATerm a0 (ix3 b n (0 : Fin 8)) = Chamfer.sq a0 b n := by
  unfold augATerm
  rw [concatenate_apply_piece (2 : Fin 3) _ _ (ix3 b n (0 : Fin 8)) 0 (by simp) S16x4096x1 _ rfl rfl 0 rfl
    (ix3 b n (0 : Fin 1)) (fun a ha => by match a with | ⟨0, _⟩ => rfl | ⟨1, _⟩ => rfl | ⟨2, _⟩ => exact absurd rfl ha) rfl]
  exact sqPiece_at a0 b n 0

/-- Column 1 of the first cloud is the word of one. -/
theorem augA_col1 (a0 : FVec Ideal S16x4096x3 .f32) (b : Fin 16) (n : Fin 4096) :
    augATerm a0 (ix3 b n (1 : Fin 8)) = Ideal.ofBits .f32 0x3F800000#32 := by
  unfold augATerm
  rw [concatenate_apply_piece (2 : Fin 3) _ _ (ix3 b n (1 : Fin 8)) 1 (by simp) S16x4096x1 _ rfl rfl 1 rfl
    (ix3 b n (0 : Fin 1)) (fun a ha => by match a with | ⟨0, _⟩ => rfl | ⟨1, _⟩ => rfl | ⟨2, _⟩ => exact absurd rfl ha) rfl]
  exact splat_at _ _ _

/-- Columns 2, 3, 4 of the first cloud are the word of minus two times the point's coordinates. -/
theorem augA_mid (a0 : FVec Ideal S16x4096x3 .f32) (b : Fin 16) (n : Fin 4096) (c : Fin 3) :
    augATerm a0 (ix3 b n (⟨c.val + 2, by omega⟩ : Fin 8)) = Ideal.ofBits .f32 0xC0000000#32 * a0 (ix3 b n c) := by
  unfold augATerm
  rw [concatenate_apply_piece (2 : Fin 3) _ _ (ix3 b n (⟨c.val + 2, by omega⟩ : Fin 8)) 2 (by simp) S16x4096x3 _ rfl rfl 2 rfl
    (ix3 b n c) (fun a ha => by match a with | ⟨0, _⟩ => rfl | ⟨1, _⟩ => rfl | ⟨2, _⟩ => exact absurd rfl ha)
    (Nat.add_comm _ _)]
  rw [mulf_apply, splat_at]

/-- Columns 5, 6, 7 of the first cloud are the zero word. -/
theorem augA_pad (a0 : FVec Ideal S16x4096x3 .f32) (b : Fin 16) (n : Fin 4096) (c : Fin 3) :
    augATerm a0 (ix3 b n (⟨c.val + 5, by omega⟩ : Fin 8)) = Ideal.ofBits .f32 0x00000000#32 := by
  unfold augATerm
  rw [concatenate_apply_piece (2 : Fin 3) _ _ (ix3 b n (⟨c.val + 5, by omega⟩ : Fin 8)) 3 (by simp) S16x4096x3 _ rfl rfl 5 rfl
    (ix3 b n c) (fun a ha => by match a with | ⟨0, _⟩ => rfl | ⟨1, _⟩ => rfl | ⟨2, _⟩ => exact absurd rfl ha)
    (Nat.add_comm _ _)]
  exact splat_at _ _ _

/-! ## The second augmented cloud, column by column -/

/-- Column 0 of the second cloud is the word of one. -/
theorem augB_col0 (a1 : FVec Ideal S16x4096x3 .f32) (b : Fin 16) (m : Fin 4096) :
    augBTerm a1 (ix3 b m (0 : Fin 8)) = Ideal.ofBits .f32 0x3F800000#32 := by
  unfold augBTerm
  rw [concatenate_apply_piece (2 : Fin 3) _ _ (ix3 b m (0 : Fin 8)) 0 (by simp) S16x4096x1 _ rfl rfl 0 rfl
    (ix3 b m (0 : Fin 1)) (fun a ha => by match a with | ⟨0, _⟩ => rfl | ⟨1, _⟩ => rfl | ⟨2, _⟩ => exact absurd rfl ha) rfl]
  exact splat_at _ _ _

/-- Column 1 of the second cloud is the squared norm. -/
theorem augB_col1 (a1 : FVec Ideal S16x4096x3 .f32) (b : Fin 16) (m : Fin 4096) :
    augBTerm a1 (ix3 b m (1 : Fin 8)) = Chamfer.sq a1 b m := by
  unfold augBTerm
  rw [concatenate_apply_piece (2 : Fin 3) _ _ (ix3 b m (1 : Fin 8)) 1 (by simp) S16x4096x1 _ rfl rfl 1 rfl
    (ix3 b m (0 : Fin 1)) (fun a ha => by match a with | ⟨0, _⟩ => rfl | ⟨1, _⟩ => rfl | ⟨2, _⟩ => exact absurd rfl ha) rfl]
  exact sqPiece_at a1 b m 0

/-- Columns 2, 3, 4 of the second cloud are the point's coordinates. -/
theorem augB_mid (a1 : FVec Ideal S16x4096x3 .f32) (b : Fin 16) (m : Fin 4096) (c : Fin 3) :
    augBTerm a1 (ix3 b m (⟨c.val + 2, by omega⟩ : Fin 8)) = a1 (ix3 b m c) := by
  unfold augBTerm
  rw [concatenate_apply_piece (2 : Fin 3) _ _ (ix3 b m (⟨c.val + 2, by omega⟩ : Fin 8)) 2 (by simp) S16x4096x3 _ rfl rfl 2 rfl
    (ix3 b m c) (fun a ha => by match a with | ⟨0, _⟩ => rfl | ⟨1, _⟩ => rfl | ⟨2, _⟩ => exact absurd rfl ha)
    (Nat.add_comm _ _)]

/-- Columns 5, 6, 7 of the second cloud are the zero word. -/
theorem augB_pad (a1 : FVec Ideal S16x4096x3 .f32) (b : Fin 16) (m : Fin 4096) (c : Fin 3) :
    augBTerm a1 (ix3 b m (⟨c.val + 5, by omega⟩ : Fin 8)) = Ideal.ofBits .f32 0x00000000#32 := by
  unfold augBTerm
  rw [concatenate_apply_piece (2 : Fin 3) _ _ (ix3 b m (⟨c.val + 5, by omega⟩ : Fin 8)) 3 (by simp) S16x4096x3 _ rfl rfl 5 rfl
    (ix3 b m c) (fun a ha => by match a with | ⟨0, _⟩ => rfl | ⟨1, _⟩ => rfl | ⟨2, _⟩ => exact absurd rfl ha)
    (Nat.add_comm _ _)]
  exact splat_at _ _ _

/-! ## The same, at each literal column (the form a sum expanded over the eight columns meets) -/

theorem augA_col2 (a0 : FVec Ideal S16x4096x3 .f32) (b : Fin 16) (n : Fin 4096) :
    augATerm a0 (ix3 b n (2 : Fin 8)) = Ideal.ofBits .f32 0xC0000000#32 * a0 (ix3 b n (0 : Fin 3)) := augA_mid a0 b n 0
theorem augA_col3 (a0 : FVec Ideal S16x4096x3 .f32) (b : Fin 16) (n : Fin 4096) :
    augATerm a0 (ix3 b n (3 : Fin 8)) = Ideal.ofBits .f32 0xC0000000#32 * a0 (ix3 b n (1 : Fin 3)) := augA_mid a0 b n 1
theorem augA_col4 (a0 : FVec Ideal S16x4096x3 .f32) (b : Fin 16) (n : Fin 4096) :
    augATerm a0 (ix3 b n (4 : Fin 8)) = Ideal.ofBits .f32 0xC0000000#32 * a0 (ix3 b n (2 : Fin 3)) := augA_mid a0 b n 2
theorem augA_col5 (a0 : FVec Ideal S16x4096x3 .f32) (b : Fin 16) (n : Fin 4096) :
    augATerm a0 (ix3 b n (5 : Fin 8)) = Ideal.ofBits .f32 0x00000000#32 := augA_pad a0 b n 0
theorem augA_col6 (a0 : FVec Ideal S16x4096x3 .f32) (b : Fin 16) (n : Fin 4096) :
    augATerm a0 (ix3 b n (6 : Fin 8)) = Ideal.ofBits .f32 0x00000000#32 := augA_pad a0 b n 1
theorem augA_col7 (a0 : FVec Ideal S16x4096x3 .f32) (b : Fin 16) (n : Fin 4096) :
    augATerm a0 (ix3 b n (7 : Fin 8)) = Ideal.ofBits .f32 0x00000000#32 := augA_pad a0 b n 2

theorem augB_col2 (a1 : FVec Ideal S16x4096x3 .f32) (b : Fin 16) (m : Fin 4096) :
    augBTerm a1 (ix3 b m (2 : Fin 8)) = a1 (ix3 b m (0 : Fin 3)) := augB_mid a1 b m 0
theorem augB_col3 (a1 : FVec Ideal S16x4096x3 .f32) (b : Fin 16) (m : Fin 4096) :
    augBTerm a1 (ix3 b m (3 : Fin 8)) = a1 (ix3 b m (1 : Fin 3)) := augB_mid a1 b m 1
theorem augB_col4 (a1 : FVec Ideal S16x4096x3 .f32) (b : Fin 16) (m : Fin 4096) :
    augBTerm a1 (ix3 b m (4 : Fin 8)) = a1 (ix3 b m (2 : Fin 3)) := augB_mid a1 b m 2
theorem augB_col5 (a1 : FVec Ideal S16x4096x3 .f32) (b : Fin 16) (m : Fin 4096) :
    augBTerm a1 (ix3 b m (5 : Fin 8)) = Ideal.ofBits .f32 0x00000000#32 := augB_pad a1 b m 0
theorem augB_col6 (a1 : FVec Ideal S16x4096x3 .f32) (b : Fin 16) (m : Fin 4096) :
    augBTerm a1 (ix3 b m (6 : Fin 8)) = Ideal.ofBits .f32 0x00000000#32 := augB_pad a1 b m 1
theorem augB_col7 (a1 : FVec Ideal S16x4096x3 .f32) (b : Fin 16) (m : Fin 4096) :
    augBTerm a1 (ix3 b m (7 : Fin 8)) = Ideal.ofBits .f32 0x00000000#32 := augB_pad a1 b m 2

/-! ## The words as reals -/

/-- The word 0xC0000000 is the real −2. -/
theorem ofBits_neg_two : Ideal.ofBits .f32 0xC0000000#32 = (((-2 : ℝ)) : EReal) := by
  simp [Ideal.ofBits, Ideal.ieee, -EReal.coe_mul, -EReal.coe_neg]; norm_num

/-- The word 0x40000000 is the real 2. -/
theorem ofBits_two : Ideal.ofBits .f32 0x40000000#32 = (((2 : ℝ)) : EReal) := by
  simp [Ideal.ofBits, Ideal.ieee, -EReal.coe_mul]; norm_num

/-! ## The law -/

/-- Over finite coordinates the contraction of the two augmented clouds over their eight columns is the squared
    distance: |p|²·1 + 1·|t|² + Σ_c (−2·p_c)·t_c + 0 = (|p|² + |t|²) − 2·(p·t). -/
theorem aug_dot (a0 a1 : FVec Ideal S16x4096x3 .f32)
    (h0 : ∀ i, ∃ r : ℝ, a0 i = (r : EReal)) (h1 : ∀ i, ∃ r : ℝ, a1 i = (r : EReal))
    (b : Fin 16) (n m : Fin 4096) :
    (∑ k : Fin 8, augATerm a0 (ix3 b n k) * augBTerm a1 (ix3 b m k)) = Chamfer.dist a0 a1 b n m := by
  rw [Fin.sum_univ_eight]
  rw [augA_col0, augA_col1, augA_col2, augA_col3, augA_col4, augA_col5, augA_col6, augA_col7,
    augB_col0, augB_col1, augB_col2, augB_col3, augB_col4, augB_col5, augB_col6, augB_col7]
  obtain ⟨x0, hx0⟩ := h0 (ix3 b n (0 : Fin 3))
  obtain ⟨x1, hx1⟩ := h0 (ix3 b n (1 : Fin 3))
  obtain ⟨x2, hx2⟩ := h0 (ix3 b n (2 : Fin 3))
  obtain ⟨y0, hy0⟩ := h1 (ix3 b m (0 : Fin 3))
  obtain ⟨y1, hy1⟩ := h1 (ix3 b m (1 : Fin 3))
  obtain ⟨y2, hy2⟩ := h1 (ix3 b m (2 : Fin 3))
  simp only [Chamfer.dist, Chamfer.sq, Chamfer.dot, Fin.sum_univ_three, hx0, hx1, hx2, hy0, hy1, hy2,
    Ideal.ofBits_zero_f32, Ideal.ofBits_one_f32, ofBits_neg_two, ofBits_two]
  simp only [zero_add, mul_one, one_mul, mul_zero, add_zero]
  simp only [← EReal.coe_mul, ← EReal.coe_add, ← EReal.coe_sub]
  congr 1
  ring

/-! ## An infimum over 4096 points, tile by tile -/

/-- The infimum over 4096 points is the infimum, over the 8 tiles of 512, of the tiles' infima: every point is point
    i % 512 of tile i / 512. -/
theorem inf_tiles (f : Fin 4096 → EReal) :
    (Finset.univ.inf f) = (Finset.univ : Finset (Fin 8)).inf fun j =>
      (Finset.univ : Finset (Fin 512)).inf fun c => f ⟨512 * j.val + c.val, by omega⟩ := by
  apply le_antisymm
  · exact Finset.le_inf fun j _ => Finset.le_inf fun c _ => Finset.inf_le (Finset.mem_univ _)
  · refine Finset.le_inf fun i _ => ?_
    have hi := i.isLt
    have e : (⟨512 * (i.val / 512) + i.val % 512, by omega⟩ : Fin 4096) = i := Fin.ext (Nat.div_add_mod _ _)
    refine le_trans (Finset.inf_le (Finset.mem_univ (⟨i.val / 512, by omega⟩ : Fin 8))) ?_
    refine le_trans (Finset.inf_le (Finset.mem_univ (⟨i.val % 512, Nat.mod_lt _ (by decide)⟩ : Fin 512))) ?_
    exact le_of_eq (congrArg f e)

end Cert.KernelIdeal.Aug

end
-- ==== Proof.TileMin.lean ====
/-
  Running minima over a grid of tiles, as infima over growing index sets.

  A function `Dm b n m` on `16 × 4096 × 4096` is swept in tiles of `8 × 512 × 512` by a grid of 128 points,
  point `p = 64·bt + 8·nt + mt` covering batches `8·bt + [0,8)`, rows `512·nt + [0,512)`, columns `512·mt + [0,512)`.
  * `rowAcc p` is the infimum over the columns of tiles `0 … mt` (for the point's rows): it restarts at the first
    tile of a row of tiles, takes in one more tile's row minima (`rowTile`) per point, and after the last tile
    (`mt = 7`) is the infimum over all 4096 columns.
  * `colAcc p` at a column `col` is the infimum over the rows of the tile rows visited so far FOR THAT COLUMN's
    tile: rows of tile rows `< nt`, and of tile row `nt` too once the sweep along the row has reached the column's
    tile (`col / 512 ≤ mt`). It is +∞ where nothing was visited, takes in this tile's column minima (`colTile`) on
    the point's 512 columns and is unchanged elsewhere, and after the last point of a batch chunk
    (`p % 64 = 63`) is the infimum over all 4096 rows.
-/
import Idealize.ShloMosaic.PureOps.Ideal

noncomputable section

namespace Chamfer.Tile

variable (Dm : Fin 16 → Fin 4096 → Fin 4096 → EReal)

/-- The batch, row and column a point's tile puts at its local coordinates. -/
def bIdx (p : ℕ) (hp : p < 128) (b : Fin 8) : Fin 16 := ⟨8 * (p / 64) + b.val, by omega⟩
def rIdx (p : ℕ) (r : Fin 512) : Fin 4096 := ⟨512 * ((p / 8) % 8) + r.val, by omega⟩
def cIdx (p : ℕ) (cc : Fin 512) : Fin 4096 := ⟨512 * (p % 8) + cc.val, by omega⟩

/-- The point's tile. -/
def tile (p : ℕ) (hp : p < 128) (b : Fin 8) (r cc : Fin 512) : EReal := Dm (bIdx p hp b) (rIdx p r) (cIdx p cc)
/-- Its row minima and column minima. -/
def rowTile (p : ℕ) (hp : p < 128) (b : Fin 8) (r : Fin 512) : EReal := Finset.univ.inf fun cc : Fin 512 => tile Dm p hp b r cc
def colTile (p : ℕ) (hp : p < 128) (b : Fin 8) (cc : Fin 512) : EReal := Finset.univ.inf fun r : Fin 512 => tile Dm p hp b r cc

/-- The infimum over the columns of the tiles `0 … mt`, for the point's batch and row. -/
def rowAcc (p : ℕ) (hp : p < 128) (b : Fin 8) (r : Fin 512) : EReal :=
  (Finset.univ.filter fun mm : Fin 4096 => mm.val / 512 ≤ p % 8).inf fun mm => Dm (bIdx p hp b) (rIdx p r) mm

/-- The infimum over the rows visited so far for column `col`'s tile, for the point's batch. -/
def colAcc (p : ℕ) (hp : p < 128) (b : Fin 8) (col : Fin 4096) : EReal :=
  (Finset.univ.filter fun nn : Fin 4096 =>
      nn.val / 512 < (p / 8) % 8 ∨ (nn.val / 512 = (p / 8) % 8 ∧ col.val / 512 ≤ p % 8)).inf fun nn => Dm (bIdx p hp b) nn col

/-- The indices of one tile of 512, out of 4096: the infimum over them is the infimum over the tile's 512 local
    coordinates. -/
private theorem inf_filter_tile (f : Fin 4096 → EReal) (j : ℕ) (hj : j < 8) :
    (Finset.univ.filter fun i : Fin 4096 => i.val / 512 = j).inf f
      = Finset.univ.inf fun cc : Fin 512 => f ⟨512 * j + cc.val, by omega⟩ := by
  apply le_antisymm
  · refine Finset.le_inf fun cc _ => ?_
    exact Finset.inf_le (Finset.mem_filter.2 ⟨Finset.mem_univ _, by
      show (512 * j + cc.val) / 512 = j
      omega⟩)
  · refine Finset.le_inf fun i hi => ?_
    have hi' : i.val / 512 = j := (Finset.mem_filter.1 hi).2
    have hle := Finset.inf_le (f := fun cc : Fin 512 => f ⟨512 * j + cc.val, by omega⟩)
      (Finset.mem_univ (⟨i.val % 512, by omega⟩ : Fin 512))
    refine le_trans hle (le_of_eq (congrArg f (Fin.ext ?_)))
    show 512 * j + i.val % 512 = i.val
    omega

/-- Within a row of tiles the batch chunk does not change from one point to the next. -/
private theorem bIdx_pred (p : ℕ) (hp : p < 128) (h : ¬p % 64 = 0) (h' : p - 1 < 128) (b : Fin 8) :
    bIdx (p - 1) h' b = bIdx p hp b :=
  Fin.ext (by
    show 8 * ((p - 1) / 64) + b.val = 8 * (p / 64) + b.val
    omega)

/-- Along a row of tiles the tile row does not change from one point to the next. -/
private theorem rIdx_pred (p : ℕ) (h : ¬p % 8 = 0) (r : Fin 512) : rIdx (p - 1) r = rIdx p r :=
  Fin.ext (by
    show 512 * (((p - 1) / 8) % 8) + r.val = 512 * ((p / 8) % 8) + r.val
    omega)

theorem rowAcc_reset (p : ℕ) (hp : p < 128) (h : p % 8 = 0) (b : Fin 8) (r : Fin 512) :
    rowAcc Dm p hp b r = min ⊤ (rowTile Dm p hp b r) := by
  rw [min_top_left]
  unfold rowAcc rowTile tile
  have hf : (Finset.univ.filter fun mm : Fin 4096 => mm.val / 512 ≤ p % 8)
      = Finset.univ.filter fun mm : Fin 4096 => mm.val / 512 = p % 8 :=
    Finset.filter_congr fun mm _ => by omega
  rw [hf]
  exact inf_filter_tile (fun mm => Dm (bIdx p hp b) (rIdx p r) mm) (p % 8) (by omega)

theorem rowAcc_step (p : ℕ) (hp : p < 128) (h : ¬p % 8 = 0) (b : Fin 8) (r : Fin 512) :
    rowAcc Dm p hp b r = min (rowAcc Dm (p - 1) (by omega) b r) (rowTile Dm p hp b r) := by
  unfold rowAcc rowTile tile
  rw [bIdx_pred p hp (by omega) _ b, rIdx_pred p h r]
  have hU : (Finset.univ.filter fun mm : Fin 4096 => mm.val / 512 ≤ p % 8)
      = (Finset.univ.filter fun mm : Fin 4096 => mm.val / 512 ≤ (p - 1) % 8)
        ∪ (Finset.univ.filter fun mm : Fin 4096 => mm.val / 512 = p % 8) := by
    ext mm
    simp only [Finset.mem_filter, Finset.mem_union, Finset.mem_univ, true_and]
    omega
  rw [hU, Finset.inf_union, inf_filter_tile _ (p % 8) (by omega)]
  rfl

theorem rowAcc_last (p : ℕ) (hp : p < 128) (h : p % 8 = 7) (b : Fin 8) (r : Fin 512) :
    rowAcc Dm p hp b r = Finset.univ.inf fun mm : Fin 4096 => Dm (bIdx p hp b) (rIdx p r) mm := by
  unfold rowAcc
  have hT : (Finset.univ.filter fun mm : Fin 4096 => mm.val / 512 ≤ p % 8) = Finset.univ :=
    Finset.filter_true_of_mem fun mm _ => by omega
  rw [hT]

theorem colAcc_reset_in (p : ℕ) (hp : p < 128) (h : p % 64 = 0) (b : Fin 8) (cc : Fin 512) :
    colAcc Dm p hp b (cIdx p cc) = min ⊤ (colTile Dm p hp b cc) := by
  rw [min_top_left]
  unfold colAcc colTile tile
  have hcv : (cIdx p cc).val = 512 * (p % 8) + cc.val := rfl
  have hf : (Finset.univ.filter fun nn : Fin 4096 =>
        nn.val / 512 < (p / 8) % 8 ∨ (nn.val / 512 = (p / 8) % 8 ∧ (cIdx p cc).val / 512 ≤ p % 8))
      = Finset.univ.filter fun nn : Fin 4096 => nn.val / 512 = (p / 8) % 8 :=
    Finset.filter_congr fun nn _ => by omega
  rw [hf]
  exact inf_filter_tile (fun nn => Dm (bIdx p hp b) nn (cIdx p cc)) ((p / 8) % 8) (by omega)

theorem colAcc_reset_out (p : ℕ) (hp : p < 128) (h : p % 64 = 0) (b : Fin 8) (col : Fin 4096)
    (hc : ¬(512 * (p % 8) ≤ col.val ∧ col.val < 512 * (p % 8) + 512)) :
    colAcc Dm p hp b col = ⊤ := by
  unfold colAcc
  have hE : (Finset.univ.filter fun nn : Fin 4096 =>
        nn.val / 512 < (p / 8) % 8 ∨ (nn.val / 512 = (p / 8) % 8 ∧ col.val / 512 ≤ p % 8)) = ∅ :=
    Finset.filter_false_of_mem fun nn _ => by omega
  rw [hE, Finset.inf_empty]

theorem colAcc_step_in (p : ℕ) (hp : p < 128) (h : ¬p % 64 = 0) (b : Fin 8) (cc : Fin 512) :
    colAcc Dm p hp b (cIdx p cc) = min (colAcc Dm (p - 1) (by omega) b (cIdx p cc)) (colTile Dm p hp b cc) := by
  unfold colAcc colTile tile
  rw [bIdx_pred p hp h _ b]
  have hcv : (cIdx p cc).val = 512 * (p % 8) + cc.val := rfl
  have hU : (Finset.univ.filter fun nn : Fin 4096 =>
        nn.val / 512 < (p / 8) % 8 ∨ (nn.val / 512 = (p / 8) % 8 ∧ (cIdx p cc).val / 512 ≤ p % 8))
      = (Finset.univ.filter fun nn : Fin 4096 =>
          nn.val / 512 < ((p - 1) / 8) % 8 ∨ (nn.val / 512 = ((p - 1) / 8) % 8 ∧ (cIdx p cc).val / 512 ≤ (p - 1) % 8))
        ∪ (Finset.univ.filter fun nn : Fin 4096 => nn.val / 512 = (p / 8) % 8) := by
    ext nn
    simp only [Finset.mem_filter, Finset.mem_union, Finset.mem_univ, true_and]
    omega
  rw [hU, Finset.inf_union, inf_filter_tile _ ((p / 8) % 8) (by omega)]
  rfl

theorem colAcc_step_out (p : ℕ) (hp : p < 128) (h : ¬p % 64 = 0) (b : Fin 8) (col : Fin 4096)
    (hc : ¬(512 * (p % 8) ≤ col.val ∧ col.val < 512 * (p % 8) + 512)) :
    colAcc Dm p hp b col = colAcc Dm (p - 1) (by omega) b col := by
  unfold colAcc
  rw [bIdx_pred p hp h _ b]
  exact congrArg (fun s : Finset (Fin 4096) => s.inf fun nn => Dm (bIdx p hp b) nn col)
    (Finset.filter_congr fun nn _ => by omega)

theorem colAcc_last (p : ℕ) (hp : p < 128) (h : p % 64 = 63) (b : Fin 8) (col : Fin 4096) :
    colAcc Dm p hp b col = Finset.univ.inf fun nn : Fin 4096 => Dm (bIdx p hp b) nn col := by
  unfold colAcc
  have hT : (Finset.univ.filter fun nn : Fin 4096 =>
        nn.val / 512 < (p / 8) % 8 ∨ (nn.val / 512 = (p / 8) % 8 ∧ col.val / 512 ≤ p % 8)) = Finset.univ :=
    Finset.filter_true_of_mem fun nn _ => by omega
  rw [hT]

end Chamfer.Tile

end
-- ==== Proof.IdealBlocks.lean ====
/-
  The input blocks and the region-entry arrays of the idealized kernel, at explicit coordinates.

  At grid point `t = 64·bt + 8·nt + mt` the first input window's block index is `(bt, nt, 0)` and the second's
  `(bt, mt, 0)`, blocks of `8 × 512 × 8`: so element `(b, r, k)` of the first block is the first augmented array at
  `(8·bt + b, 512·nt + r, k)`, and element `(b, c, k)` of the second is the second augmented array at
  `(8·bt + b, 512·mt + c, k)`. The output windows' block indices are `(bt, nt)` (blocks `8 × 512`) and `(bt, 0)`
  (blocks `8 × 4096`), and the body's dynamic column offset is `512·mt`. The two augmented arrays themselves are what
  the 21 host operations before the region compute from the two clouds.
-/
import proofs.«115503_j26963804685126_2_alg».proof.Proof.IdealFrame
import proofs.«115503_j26963804685126_2_alg».proof.Proof.Augment
import proofs.«115503_j26963804685126_2_alg».proof.Proof.TileMin
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Chamfer.Tile

variable (m : (ℓ : Loc nD τ sig) → Buf (Elt Ideal) ℓ)

theorem hN (t : Fin cfg0.N) : t.val < 128 := lt_of_lt_of_eq t.isLt (show cfg0.N = 128 from N_0)

/-! ## The index maps over the grid, decided once -/

theorem idx0 : ∀ t : Fin cfg0.N, win0_0.index t (0 : Fin 3) = t.val / 64 ∧ win0_0.index t (1 : Fin 3) = (t.val / 8) % 8 ∧ win0_0.index t (2 : Fin 3) = 0 :=
  (by decide +kernel : ∀ t : Fin grid0.N, _)
theorem idx1 : ∀ t : Fin cfg0.N, win0_1.index t (0 : Fin 3) = t.val / 64 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 2) = t.val / 64 ∧ win0_2.index t (1 : Fin 2) = (t.val / 8) % 8 :=
  (by decide +kernel : ∀ t : Fin grid0.N, _)
theorem idx3 : ∀ t : Fin cfg0.N, win0_3.index t (0 : Fin 2) = t.val / 64 ∧ win0_3.index t (1 : Fin 2) = 0 :=
  (by decide +kernel : ∀ t : Fin grid0.N, _)
/-- The body's dynamic column offset is `512·mt`. -/
theorem off1 : ∀ t : Fin cfg0.N, k0_off1 (grid0.coords t) = ![0, 512 * (t.val % 8)] :=
  (by decide +kernel : ∀ t : Fin grid0.N, _)

/-! ## The input blocks at explicit coordinates -/

theorem iblk0_at (c : Dev nD) (t : Fin cfg0.N) (b : Fin 8) (r : Fin 512) (k : Fin 8) :
    iblk m c 0 t (ix3 b r k) = V m c main_v11 (ix3 (bIdx t.val (hN t) b) (rIdx t.val r) k) := by
  show V m c main_v11 (((cfg0.win 0).blk t).view.emb (ix3 b r k)) = V m c main_v11 _
  refine congrArg _ (funext fun a => Fin.ext ?_)
  obtain ⟨h0, h1, h2⟩ := idx0 t
  match a with
  | ⟨0, _⟩ => show win0_0.index t (0 : Fin 3) * 8 + 1 * b.val = _; rw [h0]; unfold bIdx; simp only [ix3]; omega
  | ⟨1, _⟩ => show win0_0.index t (1 : Fin 3) * 512 + 1 * r.val = _; rw [h1]; unfold rIdx; simp only [ix3]; omega
  | ⟨2, _⟩ => show win0_0.index t (2 : Fin 3) * 8 + 1 * k.val = _; rw [h2]; simp only [ix3]; omega

theorem iblk1_at (c : Dev nD) (t : Fin cfg0.N) (b : Fin 8) (cc : Fin 512) (k : Fin 8) :
    iblk m c 1 t (ix3 b cc k) = V m c main_v13 (ix3 (bIdx t.val (hN t) b) (cIdx t.val cc) k) := by
  show V m c main_v13 (((cfg0.win 1).blk t).view.emb (ix3 b cc k)) = V m c main_v13 _
  refine congrArg _ (funext fun a => Fin.ext ?_)
  obtain ⟨h0, h1, h2⟩ := idx1 t
  match a with
  | ⟨0, _⟩ => show win0_1.index t (0 : Fin 3) * 8 + 1 * b.val = _; rw [h0]; unfold bIdx; simp only [ix3]; omega
  | ⟨1, _⟩ => show win0_1.index t (1 : Fin 3) * 512 + 1 * cc.val = _; rw [h1]; unfold cIdx; simp only [ix3]; omega
  | ⟨2, _⟩ => show win0_1.index t (2 : Fin 3) * 8 + 1 * k.val = _; rw [h2]; simp only [ix3]; omega

/-! ## The region-entry arrays are the augmented clouds -/

theorem V_v11 (c : Dev nD) :
    (V m c main_v11 : S16x4096x8.Idx → EReal) = Aug.augATerm (m ((c : Thread nD τ).loc main_arg0)) := by
  show StableHlo.after hostOps0 (fun b => m (c, b)) (Proc.devRef .tc main_v11) = _
  after_results
  rfl

theorem V_v13 (c : Dev nD) :
    (V m c main_v13 : S16x4096x8.Idx → EReal) = Aug.augBTerm (m ((c : Thread nD τ).loc main_arg1)) := by
  show StableHlo.after hostOps0 (fun b => m (c, b)) (Proc.devRef .tc main_v13) = _
  after_results
  rfl

end Cert.KernelIdeal.Fr

end
-- ==== Proof.PayloadIdeal.lean ====
import proofs.«115503_j26963804685126_2_alg».proof.Proof.Gen.KernelIdeal.Skeleton
import proofs.«115503_j26963804685126_2_alg».proof.Proof.Spec
import Idealize.ShloMosaic.Lib.ValueIdx
import Idealize.ShloMosaic.Lib.Pipeline.Value
import Idealize.ShloMosaic.Lib.ValueLayout
import Idealize.ShloMosaic.PureOps.Ideal.Laws

/-
  The kernel's pure values, read at an index over the extended reals.

  For one block of 8 batches, 512 points of the first cloud and 512 of the second (coordinates padded to 8):
  * the product array at (b, r, c) is the inner product of point r of the first block with point c of the second;
  * the two initial arrays are +∞ everywhere;
  * the running minimum over the last axis at (b, r) is the minimum of the carried value and the infimum over c of the
    products; over the middle axis at (b, c) likewise with the infimum over r.
-/

noncomputable section

namespace Cert.KernelIdeal.Pay

open Cert.KernelIdeal Cert.KernelIdeal.Gen Idealize.ShloMosaic Idealize.ShloMosaic.ValueIdx
open scoped BigOperators

/-- The +∞ word is the top element. -/
theorem inf_word : Ideal.ofBits .f32 0x7F800000#32 = (⊤ : EReal) := by
  simp [Ideal.ofBits, Ideal.ieee]

/-- A fold of the minimum from the top element over all coordinates of an axis is the infimum over them. -/
theorem fold_min_top (f : Fin 512 → EReal) :
    (Finset.univ : Finset (Fin 512)).fold (FloatOps.minimumf (F := Ideal) (φ := .f32)) (⊤ : EReal) f
      = Finset.univ.inf f := rfl

theorem lhs_0 (i : S8x512x512.Idx) (q : dot_S8x512x8_S8x512x8_S8x512x512_2_2_1_1_0_0.contr.Idx) :
    (dot_S8x512x8_S8x512x8_S8x512x512_2_2_1_1_0_0.lhsIdx i q 0).val = (i 0).val := by
  unfold DotDims.lhsIdx
  rw [dif_pos (show (0 : Fin S8x512x8.rank) ∈ dot_S8x512x8_S8x512x8_S8x512x512_2_2_1_1_0_0.lhsBatch by decide)]
  rfl
theorem lhs_1 (i : S8x512x512.Idx) (q : dot_S8x512x8_S8x512x8_S8x512x512_2_2_1_1_0_0.contr.Idx) :
    (dot_S8x512x8_S8x512x8_S8x512x512_2_2_1_1_0_0.lhsIdx i q 1).val = (i 1).val := by
  unfold DotDims.lhsIdx
  rw [dif_neg (show ¬(1 : Fin S8x512x8.rank) ∈ dot_S8x512x8_S8x512x8_S8x512x512_2_2_1_1_0_0.lhsBatch by decide),
    dif_pos (show (1 : Fin S8x512x8.rank) ∈ dot_S8x512x8_S8x512x8_S8x512x512_2_2_1_1_0_0.lhsNonContracting by decide)]
  rfl
theorem lhs_2 (i : S8x512x512.Idx) (q : dot_S8x512x8_S8x512x8_S8x512x512_2_2_1_1_0_0.contr.Idx) :
    (dot_S8x512x8_S8x512x8_S8x512x512_2_2_1_1_0_0.lhsIdx i q 2).val = (q ⟨0, by decide⟩).val :=
  dot_S8x512x8_S8x512x8_S8x512x512_2_2_1_1_0_0.lhsIdx_val_of_single rfl i q
theorem rhs_0 (i : S8x512x512.Idx) (q : dot_S8x512x8_S8x512x8_S8x512x512_2_2_1_1_0_0.contr.Idx) :
    (dot_S8x512x8_S8x512x8_S8x512x512_2_2_1_1_0_0.rhsIdx i q 0).val = (i 0).val := by
  unfold DotDims.rhsIdx
  rw [dif_pos (show (0 : Fin S8x512x8.rank) ∈ dot_S8x512x8_S8x512x8_S8x512x512_2_2_1_1_0_0.rhsBatch by decide)]
  rfl
theorem rhs_1 (i : S8x512x512.Idx) (q : dot_S8x512x8_S8x512x8_S8x512x512_2_2_1_1_0_0.contr.Idx) :
    (dot_S8x512x8_S8x512x8_S8x512x512_2_2_1_1_0_0.rhsIdx i q 1).val = (i 2).val := by
  unfold DotDims.rhsIdx
  rw [dif_neg (show ¬(1 : Fin S8x512x8.rank) ∈ dot_S8x512x8_S8x512x8_S8x512x512_2_2_1_1_0_0.rhsBatch by decide),
    dif_pos (show (1 : Fin S8x512x8.rank) ∈ dot_S8x512x8_S8x512x8_S8x512x512_2_2_1_1_0_0.rhsNonContracting by decide)]
  rfl
theorem rhs_2 (i : S8x512x512.Idx) (q : dot_S8x512x8_S8x512x8_S8x512x512_2_2_1_1_0_0.contr.Idx) :
    (dot_S8x512x8_S8x512x8_S8x512x512_2_2_1_1_0_0.rhsIdx i q 2).val = (q ⟨0, by decide⟩).val :=
  dot_S8x512x8_S8x512x8_S8x512x512_2_2_1_1_0_0.rhsIdx_val_of_single rfl i q

/-- The product array at (b, r, c): the inner product of point r of the first block with point c of the second. -/
theorem pay1_at (v0 v2 : Vec Ideal S8x512x8 .f32) (b : Fin 8) (r c : Fin 512) :
    k0_pay1 (F := Ideal) v0 v2 (ix3 b r c) = ∑ k : Fin 8, v0 (ix3 b r k) * v2 (ix3 b c k) := by
  unfold k0_pay1
  simp only [shapeCast_self, matmul]
  rw [Ideal.matmul_constant_zero_apply,
    ← Equiv.sum_comp (ValueIdx.contrEquiv1 dot_S8x512x8_S8x512x8_S8x512x512_2_2_1_1_0_0 8 rfl rfl).symm]
  refine Finset.sum_congr rfl fun k _ => ?_
  have hk := ValueIdx.contrEquiv1_symm_val dot_S8x512x8_S8x512x8_S8x512x512_2_2_1_1_0_0 8 rfl rfl k
  have el : dot_S8x512x8_S8x512x8_S8x512x512_2_2_1_1_0_0.lhsIdx (ix3 b r c)
      ((ValueIdx.contrEquiv1 dot_S8x512x8_S8x512x8_S8x512x512_2_2_1_1_0_0 8 rfl rfl).symm k) = ix3 b r k :=
    funext fun a => Fin.ext (by
      match a with
      | ⟨0, _⟩ => exact lhs_0 _ _
      | ⟨1, _⟩ => exact lhs_1 _ _
      | ⟨2, _⟩ => exact (lhs_2 _ _).trans hk)
  have er : dot_S8x512x8_S8x512x8_S8x512x512_2_2_1_1_0_0.rhsIdx (ix3 b r c)
      ((ValueIdx.contrEquiv1 dot_S8x512x8_S8x512x8_S8x512x512_2_2_1_1_0_0 8 rfl rfl).symm k) = ix3 b c k :=
    funext fun a => Fin.ext (by
      match a with
      | ⟨0, _⟩ => exact rhs_0 _ _
      | ⟨1, _⟩ => exact rhs_1 _ _
      | ⟨2, _⟩ => exact (rhs_2 _ _).trans hk)
  rw [el, er]

/-- The first initial array is +∞ everywhere. -/
theorem pay2_at (b : Fin 8) (r : Fin 512) : k0_pay2 (F := Ideal) (ix2 b r) = (⊤ : EReal) := inf_word

/-- The second initial array is +∞ everywhere. -/
theorem pay4_at (b : Fin 8) (j : Fin 4096) : k0_pay4 (F := Ideal) (ix2 b j) = (⊤ : EReal) := inf_word

/-- A minimum reduction over one axis from +∞, read at an index: the infimum over that axis's coordinates of the
    source at the index with the coordinate inserted. -/
theorem minReduce_at {s t : Shape} {a : Fin s.rank} (src : FVec Ideal s .f32) (h : s.Reduces [a] t)
    (hφ : FKind.Formats .f32) (hacc : (0x7F800000#32 : BitVec FTy.f32.bits) = FKind.minimumf.neutral .f32 hφ) (j : t.Idx) :
    multiReduction (F := Ideal) .minimumf [a] t src 0x7F800000#32 h hφ hacc j
      = (Finset.univ : Finset (Fin (s.size a))).inf fun k => src (h.lift j k) := by
  refine (multiReduction_minimumf_eq_fold (F := Ideal) src _ h hφ hacc j).trans ?_
  refine (h.fold_filter_drop_single _ _ src j).trans ?_
  exact congrArg (fun t => Finset.fold (FloatOps.minimumf (F := Ideal) (φ := .f32)) t (src ∘ h.lift j)
    (Finset.univ : Finset (Fin (s.size a)))) inf_word

/-- Over the last axis the index above (b, r) with coordinate c inserted is (b, r, c). -/
theorem lift_d2 (h : S8x512x512.Reduces [2] S8x512) (b : Fin 8) (r : Fin 512) (k : Fin (S8x512x512.size 2)) :
    h.lift (ix2 b r) k = ix3 b r (⟨k.val, k.isLt⟩ : Fin 512) := by
  funext c; apply Fin.ext
  match c with | ⟨0, _⟩ => rfl | ⟨1, _⟩ => rfl | ⟨2, _⟩ => rfl

/-- Over the middle axis the index above (b, c) with coordinate r inserted is (b, r, c). -/
theorem lift_d1 (h : S8x512x512.Reduces [1] S8x512) (b : Fin 8) (c : Fin 512) (k : Fin (S8x512x512.size 1)) :
    h.lift (ix2 b c) k = ix3 b (⟨k.val, k.isLt⟩ : Fin 512) c := by
  funext d; apply Fin.ext
  match d with | ⟨0, _⟩ => rfl | ⟨1, _⟩ => rfl | ⟨2, _⟩ => rfl

/-- The running minimum over the last axis at (b, r). -/
theorem pay3_at (v0 v2 : Vec Ideal S8x512x8 .f32) (v10 : Vec Ideal S8x512 .f32) (b : Fin 8) (r : Fin 512) :
    k0_pay3 (F := Ideal) v0 v2 v10 (ix2 b r)
      = min (v10 (ix2 b r)) (Finset.univ.inf fun c : Fin 512 => k0_pay1 (F := Ideal) v0 v2 (ix3 b r c)) := by
  unfold k0_pay3
  simp only [shapeCast_self]
  refine congrArg (min (v10 (ix2 b r))) ?_
  refine (minReduce_at (k0_pay1 (F := Ideal) v0 v2) reduces_S8x512x512_S8x512 (.inl rfl) rfl (ix2 b r)).trans ?_
  exact congrArg (fun f : Fin 512 → EReal => (Finset.univ : Finset (Fin 512)).inf f)
    (funext fun k => congrArg (k0_pay1 (F := Ideal) v0 v2) (lift_d2 reduces_S8x512x512_S8x512 b r k))

/-- The running minimum over the middle axis at (b, c). -/
theorem pay5_at (v0 v2 : Vec Ideal S8x512x8 .f32) (v22 : Vec Ideal S8x512 .f32) (b : Fin 8) (c : Fin 512) :
    k0_pay5 (F := Ideal) v0 v2 v22 (ix2 b c)
      = min (v22 (ix2 b c)) (Finset.univ.inf fun r : Fin 512 => k0_pay1 (F := Ideal) v0 v2 (ix3 b r c)) := by
  unfold k0_pay5
  simp only [shapeCast_self]
  refine congrArg (min (v22 (ix2 b c))) ?_
  refine (minReduce_at (k0_pay1 (F := Ideal) v0 v2) reduces_S8x512x512_S8x512_2 (.inl rfl) rfl (ix2 b c)).trans ?_
  exact congrArg (fun f : Fin 512 → EReal => (Finset.univ : Finset (Fin 512)).inf f)
    (funext fun k => congrArg (k0_pay1 (F := Ideal) v0 v2) (lift_d1 reduces_S8x512x512_S8x512_2 b c k))

end Cert.KernelIdeal.Pay

end
-- ==== Proof.IdealInvariant.lean ====
/-
  What the two output buffers hold after each grid point, in closed form.

  `Dm b n m = Σ_{k<8} A(b,n,k)·B(b,m,k)` is the pairwise term of the two augmented arrays the region finds. At point
  `t` the matmul of the two input blocks is `Dm` on the point's tile, so the body's row minima and column minima are
  the tile's. By induction along the grid: after point `t` the row-minima buffer holds, at `(b, r)`, the infimum of
  `Dm` over the columns of the tiles `0 … mt` (`rowAcc`), and the resident column-minima buffer holds, at `(b, col)`,
  the infimum over the rows visited so far for that column's tile (`colAcc`). Each step is one of the tile-minima
  laws: a restart from +∞, one more tile taken in by a minimum, or — for the columns the point does not store — no change.
-/
import proofs.«115503_j26963804685126_2_alg».proof.Proof.IdealPieces
import proofs.«115503_j26963804685126_2_alg».proof.Proof.IdealBlocks
import proofs.«115503_j26963804685126_2_alg».proof.Proof.PayloadIdeal

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)
open Chamfer.Tile

variable (m : (ℓ : Loc nD τ sig) → Buf (Elt Ideal) ℓ)

/-- The pairwise term of two arrays of eight columns: the sum over the columns of the products. -/
def Dof (A B : S16x4096x8.Idx → EReal) : Fin 16 → Fin 4096 → Fin 4096 → EReal := fun bb n mm =>
  ∑ k : Fin 8, A (ix3 bb n k) * B (ix3 bb mm k)

/-- The pairwise term of the two augmented arrays the region finds. -/
def Dm (c : Dev nD) : Fin 16 → Fin 4096 → Fin 4096 → EReal := Dof (V m c main_v11) (V m c main_v13)

/-- The matmul of the two input blocks at point `t` is `Dm` on the point's tile. -/
theorem pay1_tile (c : Dev nD) (t : Fin cfg0.N) (b : Fin 8) (r cc : Fin 512) :
    k0_pay1 (F := Ideal) (iblk m c 0 t) (iblk m c 1 t) (ix3 b r cc) = tile (Dm m c) t.val (hN t) b r cc := by
  refine (pay1_at (iblk m c 0 t) (iblk m c 1 t) b r cc).trans ?_
  unfold tile Dm Dof
  exact Finset.sum_congr rfl fun k _ => by rw [iblk0_at m c t b r k, iblk1_at m c t b cc k]

theorem rowTile_eq (c : Dev nD) (t : Fin cfg0.N) (b : Fin 8) (r : Fin 512) :
    (Finset.univ.inf fun cc : Fin 512 => k0_pay1 (F := Ideal) (iblk m c 0 t) (iblk m c 1 t) (ix3 b r cc)) = rowTile (Dm m c) t.val (hN t) b r := by
  unfold rowTile
  exact Finset.inf_congr rfl fun cc _ => pay1_tile m c t b r cc

theorem colTile_eq (c : Dev nD) (t : Fin cfg0.N) (b : Fin 8) (cc : Fin 512) :
    (Finset.univ.inf fun r : Fin 512 => k0_pay1 (F := Ideal) (iblk m c 0 t) (iblk m c 1 t) (ix3 b r cc)) = colTile (Dm m c) t.val (hN t) b cc := by
  unfold colTile
  exact Finset.inf_congr rfl fun r _ => pay1_tile m c t b r cc

/-- The row-minima payload at point `t`: the minimum of what was loaded and the tile's row minima. -/
theorem pay3_tile (c : Dev nD) (t : Fin cfg0.N) (X : Vec Ideal S8x512 .f32) (b : Fin 8) (r : Fin 512) :
    k0_pay3 (F := Ideal) (iblk m c 0 t) (iblk m c 1 t) X (ix2 b r) = min (X (ix2 b r)) (rowTile (Dm m c) t.val (hN t) b r) := by
  refine (pay3_at (iblk m c 0 t) (iblk m c 1 t) X b r).trans ?_
  rw [rowTile_eq m c t b r]

/-! ## The resident buffer read at a column: inside or outside the point's 512 columns -/

/-- Inside: the minimum of what the column held and the tile's column minimum. -/
theorem slice_in (c : Dev nD) (t : Fin cfg0.N) (X : Vec Ideal S8x4096 .f32) (b : Fin 8) (cc : Fin 512) :
    (if h : ∀ a, (![0, 512 * (t.val % 8)] : Fin 2 → ℕ) a ≤ ((ix2 b (cIdx t.val cc) : S8x4096.Idx) a).val
          ∧ ((ix2 b (cIdx t.val cc) : S8x4096.Idx) a).val < (![0, 512 * (t.val % 8)] : Fin 2 → ℕ) a + S8x512.size a then
        k0_pay5 (F := Ideal) (iblk m c 0 t) (iblk m c 1 t)
          (View.ld X (Rect.unit (s := S8x4096) (k0_off1 (grid0.coords t)) S8x512.size (Facts₀.k0_off1_inb (grid0.coords t))))
          (Rect.unitLocal (s := S8x4096) (off := ![0, 512 * (t.val % 8)]) (size := S8x512.size) (ix2 b (cIdx t.val cc)) h)
      else X (ix2 b (cIdx t.val cc)))
      = min (X (ix2 b (cIdx t.val cc))) (colTile (Dm m c) t.val (hN t) b cc) := by
  have hall : ∀ a, (![0, 512 * (t.val % 8)] : Fin 2 → ℕ) a ≤ ((ix2 b (cIdx t.val cc) : S8x4096.Idx) a).val
      ∧ ((ix2 b (cIdx t.val cc) : S8x4096.Idx) a).val < (![0, 512 * (t.val % 8)] : Fin 2 → ℕ) a + S8x512.size a := by
    intro a
    match a with
    | ⟨0, _⟩ => exact ⟨Nat.zero_le _, by show b.val < 0 + 8; omega⟩
    | ⟨1, _⟩ => exact ⟨by show 512 * (t.val % 8) ≤ 512 * (t.val % 8) + cc.val; omega, by show 512 * (t.val % 8) + cc.val < 512 * (t.val % 8) + 512; omega⟩
  rw [dif_pos hall]
  have hloc : Rect.unitLocal (s := S8x4096) (off := ![0, 512 * (t.val % 8)]) (size := S8x512.size) (ix2 b (cIdx t.val cc)) hall = (ix2 b cc : S8x512.Idx) :=
    funext fun a => Fin.ext (by
      match a with
      | ⟨0, _⟩ => show b.val - 0 = b.val; omega
      | ⟨1, _⟩ => show 512 * (t.val % 8) + cc.val - 512 * (t.val % 8) = cc.val; omega)
  rw [hloc]
  refine (pay5_at (iblk m c 0 t) (iblk m c 1 t) _ b cc).trans ?_
  rw [colTile_eq m c t b cc]
  congr 1
  show X ((Rect.unit (s := S8x4096) (k0_off1 (grid0.coords t)) S8x512.size (Facts₀.k0_off1_inb (grid0.coords t))).emb (ix2 b cc)) = _
  refine congrArg X (funext fun a => Fin.ext ?_)
  have ho := off1 t
  match a with
  | ⟨0, _⟩ => show k0_off1 (grid0.coords t) 0 + 1 * b.val = b.val; rw [ho]; show 0 + 1 * b.val = b.val; omega
  | ⟨1, _⟩ => show k0_off1 (grid0.coords t) 1 + 1 * cc.val = 512 * (t.val % 8) + cc.val; rw [ho]; show 512 * (t.val % 8) + 1 * cc.val = _; omega

/-- Outside: what the column held. -/
theorem slice_out (c : Dev nD) (t : Fin cfg0.N) (X : Vec Ideal S8x4096 .f32) (b : Fin 8) (col : Fin 4096)
    (hc : ¬(512 * (t.val % 8) ≤ col.val ∧ col.val < 512 * (t.val % 8) + 512)) :
    (if h : ∀ a, (![0, 512 * (t.val % 8)] : Fin 2 → ℕ) a ≤ ((ix2 b col : S8x4096.Idx) a).val
          ∧ ((ix2 b col : S8x4096.Idx) a).val < (![0, 512 * (t.val % 8)] : Fin 2 → ℕ) a + S8x512.size a then
        k0_pay5 (F := Ideal) (iblk m c 0 t) (iblk m c 1 t)
          (View.ld X (Rect.unit (s := S8x4096) (k0_off1 (grid0.coords t)) S8x512.size (Facts₀.k0_off1_inb (grid0.coords t))))
          (Rect.unitLocal (s := S8x4096) (off := ![0, 512 * (t.val % 8)]) (size := S8x512.size) (ix2 b col) h)
      else X (ix2 b col))
      = X (ix2 b col) := by
  rw [dif_neg]
  intro hall
  exact hc (hall (1 : Fin 2))

/-- A column inside the point's 512 columns is the point's column offset plus a local column. -/
theorem exists_cIdx (p : ℕ) (col : Fin 4096) (hc : 512 * (p % 8) ≤ col.val ∧ col.val < 512 * (p % 8) + 512) :
    ∃ cc : Fin 512, col = cIdx p cc :=
  ⟨⟨col.val - 512 * (p % 8), by omega⟩, Fin.ext (by show col.val = 512 * (p % 8) + (col.val - 512 * (p % 8)); omega)⟩

/-! ## The invariant -/

theorem outs_inv (c : Dev nD) : ∀ (n : ℕ) (hn : n < cfg0.N),
    (∀ (b : Fin 8) (r : Fin 512), (outsAt0 m c n hn).1 (ix2 b r) = rowAcc (Dm m c) n (hN ⟨n, hn⟩) b r)
    ∧ (∀ (b : Fin 8) (col : Fin 4096), (outsAt0 m c n hn).2 (ix2 b col) = colAcc (Dm m c) n (hN ⟨n, hn⟩) b col) := by
  intro n
  induction n using Nat.strong_induction_on with
  | _ n ih =>
    intro hn
    have hn' : n < 128 := hN ⟨n, hn⟩
    have hoff : k0_off1 (grid0.coords ⟨n, hn⟩) = ![0, 512 * (n % 8)] := off1 ⟨n, hn⟩
    by_cases h1 : n % 64 = 0
    · have e : outsAt0 m c n hn = _ := outsAt0_A m c ⟨n, hn⟩ h1
      rw [e]
      constructor
      · intro b r
        dsimp only
        rw [out0_A_2_eq]
        refine (pay3_tile m c ⟨n, hn⟩ _ b r).trans ?_
        rw [pay2_at b r]
        exact (rowAcc_reset (Dm m c) n hn' (mod8_of_mod64 h1) b r).symm
      · intro b col
        dsimp only
        rw [out0_A_3_at _ _ _ _ _ _ _ _ _ _ _ _ _ _ (ix2 b col) _ hoff]
        by_cases hc : 512 * (n % 8) ≤ col.val ∧ col.val < 512 * (n % 8) + 512
        · obtain ⟨cc, rfl⟩ := exists_cIdx n col hc
          refine (slice_in m c ⟨n, hn⟩ _ b cc).trans ?_
          rw [pay4_at b (cIdx n cc)]
          exact (colAcc_reset_in (Dm m c) n hn' h1 b cc).symm
        · refine (slice_out m c ⟨n, hn⟩ _ b col hc).trans ?_
          rw [pay4_at b col]
          exact (colAcc_reset_out (Dm m c) n hn' h1 b col hc).symm
    · have hn0 : n ≠ 0 := fun h => h1 (by rw [h])
      have ihp := ih (n - 1) (by omega) (Nat.lt_of_le_of_lt (Nat.sub_le _ _) hn)
      by_cases h0 : n % 8 = 0
      · have e : outsAt0 m c n hn = _ := outsAt0_B m c ⟨n, hn⟩ h1 h0
        rw [e]
        constructor
        · intro b r
          dsimp only
          rw [out0_B_2_eq]
          refine (pay3_tile m c ⟨n, hn⟩ _ b r).trans ?_
          rw [pay2_at b r]
          exact (rowAcc_reset (Dm m c) n hn' h0 b r).symm
        · intro b col
          dsimp only
          rw [out0_B_3_at _ _ _ _ _ _ _ _ _ _ _ _ _ _ _ (ix2 b col) _ hoff]
          by_cases hc : 512 * (n % 8) ≤ col.val ∧ col.val < 512 * (n % 8) + 512
          · obtain ⟨cc, rfl⟩ := exists_cIdx n col hc
            refine (slice_in m c ⟨n, hn⟩ _ b cc).trans ?_
            rw [ihp.2 b (cIdx n cc)]
            exact (colAcc_step_in (Dm m c) n hn' h1 b cc).symm
          · refine (slice_out m c ⟨n, hn⟩ _ b col hc).trans ?_
            rw [ihp.2 b col]
            exact (colAcc_step_out (Dm m c) n hn' h1 b col hc).symm
      · have e : outsAt0 m c n hn = _ := outsAt0_C m c ⟨n, hn⟩ h0
        rw [e]
        constructor
        · intro b r
          dsimp only
          rw [out0_C_2_eq]
          refine (pay3_tile m c ⟨n, hn⟩ _ b r).trans ?_
          rw [ihp.1 b r]
          exact (rowAcc_step (Dm m c) n hn' h0 b r).symm
        · intro b col
          dsimp only
          rw [out0_C_3_at _ _ _ _ _ _ _ _ _ _ _ _ _ _ _ _ (ix2 b col) _ hoff]
          by_cases hc : 512 * (n % 8) ≤ col.val ∧ col.val < 512 * (n % 8) + 512
          · obtain ⟨cc, rfl⟩ := exists_cIdx n col hc
            refine (slice_in m c ⟨n, hn⟩ _ b cc).trans ?_
            rw [ihp.2 b (cIdx n cc)]
            exact (colAcc_step_in (Dm m c) n hn' h1 b cc).symm
          · refine (slice_out m c ⟨n, hn⟩ _ b col hc).trans ?_
            rw [ihp.2 b col]
            exact (colAcc_step_out (Dm m c) n hn' h1 b col hc).symm

end Cert.KernelIdeal.Fr

end
-- ==== Proof.IdealFinal.lean ====
/-
  The two arrays the region writes, as whole-array functions.

  The row-minima buffer is written back after the last tile of a row of tiles (`mt = 7`), when it holds the
  infimum of `Dm` over all 4096 columns for the point's 8 × 512 (batch, row) block; those blocks, over the 2 × 8
  rows of tiles, tile the `16 × 4096` array. The resident column-minima buffer is written back after the last
  point of a batch chunk (`nt = mt = 7`), when it holds the infimum over all 4096 rows for the chunk's
  8 × 4096 (batch, column) block; the two chunks tile the array. So the first array ends at
  `(b, n) ↦ inf_m Dm b n m` and the second at `(b, m) ↦ inf_n Dm b n m`. For finite clouds `Dm` is the
  specification's squared distance (the augmented-columns law), so the two arrays are its nearest-neighbour arrays.
-/
import proofs.«115503_j26963804685126_2_alg».proof.Proof.IdealInvariant

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Chamfer.Tile

variable (m : (ℓ : Loc nD τ sig) → Buf (Elt Ideal) ℓ)

/-- For each (batch, row), the infimum of `Dm` over the columns; for each (batch, column), over the rows. -/
def rowInf (c : Dev nD) : S16x4096.Idx → EReal := fun i => Finset.univ.inf fun mm : Fin 4096 => Dm m c (i 0) (i 1) mm
def colInf (c : Dev nD) : S16x4096.Idx → EReal := fun i => Finset.univ.inf fun nn : Fin 4096 => Dm m c (i 0) nn (i 1)

/-! ## The row minima -/

/-- What a point after the last tile of its row of tiles writes back is its block of `rowInf`. -/
theorem written_rows (c : Dev nD) (t : Fin cfg0.N) (hf : (cfg0.win 2).flush t = true) :
    (dats m 0 c).flushed 2 t = ((cfg0.win 2).blk t).view.read (Elt Ideal) (rowInf m c) := by
  show (cfg0.win 2).cut (grid0.coords t) ((dats m 0 c).after 2 t) = _
  rw [after0_2]
  have h7 : t.val % 8 = 7 := (flush0_2 t).mp hf
  obtain ⟨e0, e1⟩ := idx2 t
  funext j
  obtain ⟨b, r, rfl⟩ : ∃ (b : Fin 8) (r : Fin 512), j = (ix2 b r : S8x512.Idx) := ⟨j 0, j 1, eq_ix2 j⟩
  show (outsAt0 m c t.val t.isLt).1 (ix2 b r) = rowInf m c (((cfg0.win 2).blk t).view.emb (ix2 b r))
  rw [(outs_inv m c t.val t.isLt).1 b r, rowAcc_last (Dm m c) t.val _ h7 b r]
  unfold rowInf
  have hb : (((cfg0.win 2).blk t).view.emb (ix2 b r)) 0 = bIdx t.val (hN t) b :=
    Fin.ext (by show win0_2.index t (0 : Fin 2) * 8 + 1 * b.val = _; rw [e0]; unfold bIdx; show _ = 8 * (t.val / 64) + b.val; omega)
  have hr : (((cfg0.win 2).blk t).view.emb (ix2 b r)) 1 = rIdx t.val r :=
    Fin.ext (by show win0_2.index t (1 : Fin 2) * 512 + 1 * r.val = _; rw [e1]; unfold rIdx; show _ = 512 * ((t.val / 8) % 8) + r.val; omega)
  rw [hb, hr]

theorem mem_rows_blk (t : Fin cfg0.N) (i : S16x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v14_0).slice (win0_2.rect t)).set ↔ _
  rw [View.set_slice_whole, Rect.mem_set_unit]
  exact Iff.rfl

/-- Every (batch, row) lies in the block written back after the last tile of its row of tiles. -/
theorem cover_rows (i : S16x4096.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  let t : Fin cfg0.N := ⟨64 * ((i 0).val / 8) + 8 * ((i 1).val / 512) + 7, lt_of_lt_of_eq (by omega : _ < 128) N_0.symm⟩
  have htv : t.val = 64 * ((i 0).val / 8) + 8 * ((i 1).val / 512) + 7 := rfl
  refine ⟨t, (flush0_2 t).mpr (by rw [htv]; omega), ?_⟩
  rw [mem_rows_blk]
  obtain ⟨e0, e1⟩ := idx2 t
  intro a
  match a with
  | ⟨0, _⟩ => show win0_2.index t (0 : Fin 2) * 8 ≤ (i 0).val ∧ (i 0).val < win0_2.index t (0 : Fin 2) * 8 + 8; rw [e0, htv]; omega
  | ⟨1, _⟩ => show win0_2.index t (1 : Fin 2) * 512 ≤ (i 1).val ∧ (i 1).val < win0_2.index t (1 : Fin 2) * 512 + 512; rw [e1, htv]; omega

/-- The first output array after the run. -/
theorem final_rows (c : Dev nD) : (dats m 0 c).arrAt 2 cfg0.N = rowInf m c :=
  (dats m 0 c).arrAt_eq_of_cover 2 (rowInf m c) (fun t hf => written_rows m c t hf) cover_rows

/-! ## The column minima -/

/-- What the last point of a batch chunk writes back is its block of `colInf`. -/
theorem written_cols (c : Dev nD) (t : Fin cfg0.N) (hf : (cfg0.win 3).flush t = true) :
    (dats m 0 c).flushed 3 t = ((cfg0.win 3).blk t).view.read (Elt Ideal) (colInf m c) := by
  show (cfg0.win 3).cut (grid0.coords t) ((dats m 0 c).after 3 t) = _
  rw [after0_3]
  have h63 : t.val % 64 = 63 := (flush0_3 t).mp hf
  obtain ⟨e0, e1⟩ := idx3 t
  funext j
  obtain ⟨b, col, rfl⟩ : ∃ (b : Fin 8) (col : Fin 4096), j = (ix2 b col : S8x4096.Idx) := ⟨j 0, j 1, eq_ix2 j⟩
  show (outsAt0 m c t.val t.isLt).2 (ix2 b col) = colInf m c (((cfg0.win 3).blk t).view.emb (ix2 b col))
  rw [(outs_inv m c t.val t.isLt).2 b col, colAcc_last (Dm m c) t.val _ h63 b col]
  unfold colInf
  have hb : (((cfg0.win 3).blk t).view.emb (ix2 b col)) 0 = bIdx t.val (hN t) b :=
    Fin.ext (by show win0_3.index t (0 : Fin 2) * 8 + 1 * b.val = _; rw [e0]; unfold bIdx; show _ = 8 * (t.val / 64) + b.val; omega)
  have hcl : (((cfg0.win 3).blk t).view.emb (ix2 b col)) 1 = col :=
    Fin.ext (by show win0_3.index t (1 : Fin 2) * 4096 + 1 * col.val = _; rw [e1]; omega)
  rw [hb, hcl]

theorem mem_cols_blk (t : Fin cfg0.N) (i : S16x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v14_1).slice (win0_3.rect t)).set ↔ _
  rw [View.set_slice_whole, Rect.mem_set_unit]
  exact Iff.rfl

/-- Every (batch, column) lies in the block its batch chunk's last point writes back. -/
theorem cover_cols (i : S16x4096.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  let t : Fin cfg0.N := ⟨64 * ((i 0).val / 8) + 63, lt_of_lt_of_eq (by omega : _ < 128) N_0.symm⟩
  have htv : t.val = 64 * ((i 0).val / 8) + 63 := rfl
  refine ⟨t, (flush0_3 t).mpr (by rw [htv]; omega), ?_⟩
  rw [mem_cols_blk]
  obtain ⟨e0, e1⟩ := idx3 t
  intro a
  match a with
  | ⟨0, _⟩ => show win0_3.index t (0 : Fin 2) * 8 ≤ (i 0).val ∧ (i 0).val < win0_3.index t (0 : Fin 2) * 8 + 8; rw [e0, htv]; omega
  | ⟨1, _⟩ => show win0_3.index t (1 : Fin 2) * 4096 ≤ (i 1).val ∧ (i 1).val < win0_3.index t (1 : Fin 2) * 4096 + 4096; rw [e1]; omega

/-- The second output array after the run. -/
theorem final_cols (c : Dev nD) : (dats m 0 c).arrAt 3 cfg0.N = colInf m c :=
  (dats m 0 c).arrAt_eq_of_cover 3 (colInf m c) (fun t hf => written_cols m c t hf) cover_cols

/-! ## For finite clouds: the specification's nearest-neighbour arrays -/

/-- The pairwise term of the augmented arrays is the squared distance of the two clouds, when every entry is a real. -/
theorem Dm_eq_dist (c : Dev nD)
    (h0 : ∀ i, ∃ r : ℝ, m ((c : Thread nD τ).loc main_arg0) i = (r : EReal))
    (h1 : ∀ i, ∃ r : ℝ, m ((c : Thread nD τ).loc main_arg1) i = (r : EReal))
    (bb : Fin 16) (n mm : Fin 4096) :
    Dm m c bb n mm = Chamfer.dist (m ((c : Thread nD τ).loc main_arg0)) (m ((c : Thread nD τ).loc main_arg1)) bb n mm := by
  unfold Dm Dof
  rw [V_v11 m c, V_v13 m c]
  exact Aug.aug_dot _ _ h0 h1 bb n mm

theorem rowInf_eq_near (c : Dev nD)
    (h0 : ∀ i, ∃ r : ℝ, m ((c : Thread nD τ).loc main_arg0) i = (r : EReal))
    (h1 : ∀ i, ∃ r : ℝ, m ((c : Thread nD τ).loc main_arg1) i = (r : EReal)) :
    rowInf m c = Chamfer.nearX (m ((c : Thread nD τ).loc main_arg0)) (m ((c : Thread nD τ).loc main_arg1)) := by
  funext i
  unfold rowInf Chamfer.nearX
  exact Finset.inf_congr rfl fun mm _ => Dm_eq_dist m c h0 h1 (i 0) (i 1) mm

theorem colInf_eq_near (c : Dev nD)
    (h0 : ∀ i, ∃ r : ℝ, m ((c : Thread nD τ).loc main_arg0) i = (r : EReal))
    (h1 : ∀ i, ∃ r : ℝ, m ((c : Thread nD τ).loc main_arg1) i = (r : EReal)) :
    colInf m c = Chamfer.nearY (m ((c : Thread nD τ).loc main_arg0)) (m ((c : Thread nD τ).loc main_arg1)) := by
  funext i
  unfold colInf Chamfer.nearY
  exact Finset.inf_congr rfl fun nn _ => Dm_eq_dist m c h0 h1 (i 0) nn (i 1)

end Cert.KernelIdeal.Fr

end
-- ==== Proof.IdealTail.lean ====
import proofs.«115503_j26963804685126_2_alg».proof.Proof.IdealFrame
import proofs.«115503_j26963804685126_2_alg».proof.Proof.Spec
import Idealize.ShloMosaic.Lib.StableHlo.Run
import Idealize.ShloMosaic.Lib.Pipeline.FrameSuffix

/-
  What the idealized kernel's result buffer holds at the end.

  After the region, @main's last 15 host operations take the two arrays the region wrote (the row minima and the
  column minima), sum each over its points and divide by 4096, add the two rows, sum over the batch and divide by 16.
  Those are exactly the operations of the specification's mean tail, so the result buffer ends at the mean tail of the
  two arrays as the region leaves them; no arithmetic is evaluated. The two argument arrays end as launched.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The result buffer ends at the mean tail of the two arrays the region wrote. -/
theorem tail_v23 (c : Dev nD) :
    Pipeline.afterTail₀ cfgs (dats m) 0 (V0 m) [hostOps1] c main_v23
      = Chamfer.meanTail Cert.KernelIdeal.Facts₀.reducesTo_S16x4096_S16_d1 Cert.KernelIdeal.Facts₀.h_S_
          Cert.KernelIdeal.Facts₀.bcast_S_S16 Cert.KernelIdeal.Facts₀.reducesTo_S16_S_d0
          ((dats m 0 c).arrAt 2 cfg0.N) ((dats m 0 c).arrAt 3 cfg0.N) := by
  unfold Pipeline.afterTail₀
  show StableHlo.after hostOps1 _ (Proc.devRef .tc main_v23) = _
  after_results
  -- the two arrays the tail reads are the region's third and fourth arrays, as the region leaves them
  have e2 : Pipeline.withArrays (cfgs 0).spec c (V0 m c) (fun w => (dats m 0 c).arrAt w (cfgs 0).N)
      (Proc.devRef .tc main_v14_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v14_1) = (dats m 0 c).arrAt 3 cfg0.N :=
    Pipeline.withArrays_arr spec0 launch0.win.arr_inj c _ _ 3
  rw [e2, e3]
  rfl

/-- Every weakly fair execution of @main terminates; the result buffer ends at the mean tail of the two arrays the
    region wrote, and the two argument arrays end as launched. -/
theorem result_main (ρ : Dev nD → PrngReg) :
    θ_run defs (onTc (τ := τ) (main (F := Ideal))) ⟨m, fun _ => 0, ρ⟩ (fun r => ∀ c : Dev nD,
      r.2.mem ((c.tc : Thread nD τ).loc main_v23)
          = Chamfer.meanTail Cert.KernelIdeal.Facts₀.reducesTo_S16x4096_S16_d1 Cert.KernelIdeal.Facts₀.h_S_
              Cert.KernelIdeal.Facts₀.bcast_S_S16 Cert.KernelIdeal.Facts₀.reducesTo_S16_S_d0
              ((dats m 0 c).arrAt 2 cfg0.N) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 (by decide) (by decide))).trans (tail_v23 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fr

end
-- ==== Proof.RefSide.lean ====
import proofs.«115503_j26963804685126_2_alg».proof.Defs
import proofs.«115503_j26963804685126_2_alg».proof.Proof.Gen.ReferenceIdeal.Read
import proofs.«115503_j26963804685126_2_alg».proof.Proof.Spec
import Idealize.ShloMosaic.Lib.ValueIdx
import Idealize.ShloMosaic.Lib.Pipeline.Value
import Idealize.ShloMosaic.PureOps.Ideal.Laws

/-
  The reference program computes the chamfer distance of the specification: its two minimum-reduces are
  Chamfer.nearX and Chamfer.nearY, and its result is Chamfer.meanTail of them.

  Element by element: the squared distances array at (b, n, m) is Chamfer.dist x y b n m; a minimum-reduce from
  +∞ over one axis is the infimum over that axis's coordinates; the lines after the two reduces are the tail's.
-/

noncomputable section

namespace Cert.ReferenceIdeal.RefSide

open Cert.ReferenceIdeal Cert.ReferenceIdeal.Gen Cert.ReferenceIdeal.Read Idealize.ShloMosaic Idealize.ShloMosaic.ValueIdx
open scoped BigOperators

/-- The squared norms of the first cloud: the sum over the last axis at (b, n). -/
theorem v1_at (x : FVec Ideal S16x4096x3 .f32) (b : Fin 16) (n : Fin 4096) :
    val_main_v1 (F := Ideal) x (ix2 b n) = Chamfer.sq x b n := by
  rw [val_main_v1_apply, val_main_cst_apply]
  refine congrArg (_ + ·) (Finset.sum_congr rfl fun k _ => ?_)
  rw [val_main_v0_apply]
  have e : idx_main_v1 (ix2 b n) k = ix3 b n k :=
    funext fun a => Fin.ext (by match a with | ⟨0, _⟩ => rfl | ⟨1, _⟩ => rfl | ⟨2, _⟩ => rfl)
  rw [e]
  rfl

/-- The squared norms of the second cloud: the sum over the last axis at (b, m). -/
theorem v3_at (y : FVec Ideal S16x4096x3 .f32) (b : Fin 16) (m : Fin 4096) :
    val_main_v3 (F := Ideal) y (ix2 b m) = Chamfer.sq y b m := by
  rw [val_main_v3_apply, val_main_cst_0_apply]
  refine congrArg (_ + ·) (Finset.sum_congr rfl fun k _ => ?_)
  rw [val_main_v2_apply]
  have e : idx_main_v3 (ix2 b m) k = ix3 b m k :=
    funext fun a => Fin.ext (by match a with | ⟨0, _⟩ => rfl | ⟨1, _⟩ => rfl | ⟨2, _⟩ => rfl)
  rw [e]
  rfl

/-- The inner products: the contraction over the last axis at (b, n, m). -/
theorem v4_at (x y : FVec Ideal S16x4096x3 .f32) (b : Fin 16) (n m : Fin 4096) :
    val_main_v4 (F := Ideal) x y (ix3 b n m) = Chamfer.dot x y b n m := by
  rw [val_main_v4_apply]
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The squared distances array at (b, n, m). -/
theorem v12_at (x y : FVec Ideal S16x4096x3 .f32) (b : Fin 16) (n m : Fin 4096) :
    val_main_v12 (F := Ideal) x y (ix3 b n m) = Chamfer.dist x y b n m := by
  rw [val_main_v12_apply, val_main_v9_apply, val_main_v11_apply, val_main_v7_apply, val_main_v8_apply,
    val_main_v5_apply, val_main_v6_apply, val_main_v10_apply, val_main_cst_1_apply, v4_at]
  have e1 : idx_main_v5 (idx_main_v7 (ix3 b n m)) = ix2 b n :=
    funext fun a => Fin.ext (by match a with | ⟨0, _⟩ => rfl | ⟨1, _⟩ => rfl)
  have e2 : idx_main_v6 (idx_main_v8 (ix3 b n m)) = ix2 b m :=
    funext fun a => Fin.ext (by match a with | ⟨0, _⟩ => rfl | ⟨1, _⟩ => rfl)
  rw [e1, e2, v1_at, v3_at]
  rfl

/-- The +∞ word is the top element. -/
theorem inf_word : Ideal.ofBits .f32 0x7F800000#32 = (⊤ : EReal) := by
  simp [Ideal.ofBits, Ideal.ieee]

/-- A fold of the minimum from the top element over all coordinates of an axis is the infimum over them. -/
theorem fold_min_top (f : Fin 4096 → EReal) :
    (Finset.univ : Finset (Fin 4096)).fold (FloatOps.minimumf (F := Ideal) (φ := .f32)) (⊤ : EReal) f
      = Finset.univ.inf f := rfl

/-- Over the last axis the index above (b, n) with coordinate m inserted is (b, n, m). -/
theorem lift_d2 (h : S16x4096x4096.Reduces [2] S16x4096) (i : S16x4096.Idx) (k : Fin (S16x4096x4096.size 2)) :
    h.lift i k = ix3 (i 0) (i 1) (⟨k.val, k.isLt⟩ : Fin 4096) := by
  funext c; apply Fin.ext
  match c with | ⟨0, _⟩ => rfl | ⟨1, _⟩ => rfl | ⟨2, _⟩ => rfl

/-- Over the middle axis the index above (b, m) with coordinate n inserted is (b, n, m). -/
theorem lift_d1 (h : S16x4096x4096.Reduces [1] S16x4096) (i : S16x4096.Idx) (k : Fin (S16x4096x4096.size 1)) :
    h.lift i k = ix3 (i 0) (⟨k.val, k.isLt⟩ : Fin 4096) (i 1) := by
  funext c; apply Fin.ext
  match c with | ⟨0, _⟩ => rfl | ⟨1, _⟩ => rfl | ⟨2, _⟩ => rfl

/-- The minimum-reduce over the last axis: for each point of the first cloud, the least squared distance. -/
theorem v13_eq (x y : FVec Ideal S16x4096x3 .f32) :
    val_main_v13 (F := Ideal) x y = Chamfer.nearX x y := by
  funext i
  have hR : S16x4096x4096.Reduces [2] S16x4096 := by decide
  unfold val_main_v13
  rw [Host.reduce_eq_fold_single FloatOps.minimumf _ _ reducesTo_S16x4096x4096_S16x4096_d2 hR h_S_ i,
    val_main_cst_2_apply]
  have hf : (val_main_v12 (F := Ideal) x y ∘ hR.lift i) = fun m : Fin 4096 => Chamfer.dist x y (i 0) (i 1) m :=
    funext fun k => (congrArg (val_main_v12 (F := Ideal) x y) (lift_d2 hR i k)).trans (v12_at x y (i 0) (i 1) _)
  refine Eq.trans ?_ (fold_min_top fun m : Fin 4096 => Chamfer.dist x y (i 0) (i 1) m)
  refine Eq.trans (congrArg (fun f => Finset.fold (FloatOps.minimumf (F := Ideal) (φ := .f32)) _ f
    (Finset.univ : Finset (Fin 4096))) hf) ?_
  exact congrArg (fun t => Finset.fold (FloatOps.minimumf (F := Ideal) (φ := .f32)) t
    (fun m : Fin 4096 => Chamfer.dist x y (i 0) (i 1) m) (Finset.univ : Finset (Fin 4096))) inf_word

/-- The minimum-reduce over the middle axis: for each point of the second cloud, the least squared distance. -/
theorem v14_eq (x y : FVec Ideal S16x4096x3 .f32) :
    val_main_v14 (F := Ideal) x y = Chamfer.nearY x y := by
  funext i
  have hR : S16x4096x4096.Reduces [1] S16x4096 := by decide
  unfold val_main_v14
  rw [Host.reduce_eq_fold_single FloatOps.minimumf _ _ reducesTo_S16x4096x4096_S16x4096_d1 hR h_S_ i,
    val_main_cst_3_apply]
  have hf : (val_main_v12 (F := Ideal) x y ∘ hR.lift i) = fun n : Fin 4096 => Chamfer.dist x y (i 0) n (i 1) :=
    funext fun k => (congrArg (val_main_v12 (F := Ideal) x y) (lift_d1 hR i k)).trans (v12_at x y (i 0) _ (i 1))
  refine Eq.trans ?_ (fold_min_top fun n : Fin 4096 => Chamfer.dist x y (i 0) n (i 1))
  refine Eq.trans (congrArg (fun f => Finset.fold (FloatOps.minimumf (F := Ideal) (φ := .f32)) _ f
    (Finset.univ : Finset (Fin 4096))) hf) ?_
  exact congrArg (fun t => Finset.fold (FloatOps.minimumf (F := Ideal) (φ := .f32)) t
    (fun n : Fin 4096 => Chamfer.dist x y (i 0) n (i 1)) (Finset.univ : Finset (Fin 4096))) inf_word

/-- The result: the lines after the two minimum-reduces are the tail of the specification. -/
theorem result_eq (x y : FVec Ideal S16x4096x3 .f32) :
    val_main_v23 (F := Ideal) x y
      = Chamfer.meanTail Cert.ReferenceIdeal.Facts₀.reducesTo_S16x4096_S16_d1 Cert.ReferenceIdeal.Facts₀.h_S_
          Cert.ReferenceIdeal.Facts₀.bcast_S_S16 Cert.ReferenceIdeal.Facts₀.reducesTo_S16_S_d0
          (Chamfer.nearX x y) (Chamfer.nearY x y) := by
  rw [← v13_eq, ← v14_eq]
  rfl

end Cert.ReferenceIdeal.RefSide

end
-- ==== Proof.Finite.lean ====
import proofs.«115503_j26963804685126_2_alg».proof.Defs
import Idealize.ShloMosaic.Lib.Affine
import Idealize.ShloMosaic.Lib.ReduceAll
import Idealize.ShloMosaic.Lib.ValueIdx
import Idealize.ShloMosaic.PureOps.Ideal.Laws

/-
  The precondition says every entry of both clouds is finite.

  It is the conjunction of two "all" reductions: for each cloud, the conjunction over every entry v of
  |v| < +∞, where |v| = max v (−v) and +∞ is the word 0x7F800000. A conjunction that is true has every
  conjunct true, so at each entry max v (−v) < ⊤; that excludes v = ⊤ (max is ⊤) and v = ⊥ (−⊥ = ⊤), and what is
  left of the extended reals is the reals.
-/

noncomputable section

namespace Cert.Proof.Finite

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below the word of +∞ is a real. -/
theorem real_of_abs_lt (v : EReal)
    (h : Ideal.cmp .olt (max v (-v)) (Ideal.ofBits .f32 0x7F800000#32) = 1#1) : ∃ r : ℝ, v = (r : EReal) := by
  rw [ofBits_inf] at h
  have hlt : max v (-v) < ⊤ := by
    by_contra hn
    simp [Ideal.cmp, hn] at h
  induction v using EReal.rec with
  | bot => simp at hlt
  | coe r => exact ⟨r, rfl⟩
  | top => simp at hlt

/-- From the precondition, every entry of both clouds is a real. -/
theorem finite_of_fn [Cert.Pre_finite_inputs.Facts]
    (x y : FVec Ideal Cert.Pre_finite_inputs.S16x4096x3 .f32)
    (h : Cert.Pre_finite_inputs.fn (F := Ideal) x y = (fun _ => 1#1)) :
    (∀ i, ∃ r : ℝ, x i = (r : EReal)) ∧ (∀ i, ∃ r : ℝ, y i = (r : EReal)) := by
  have e := congrFun h ix0
  unfold Cert.Pre_finite_inputs.fn at e
  dsimp only at e
  obtain ⟨ex, ey⟩ := IntOp.andi_eq_one.1 e
  exact ⟨fun i => real_of_abs_lt (x i) (Host.reduce_andi_all _ _ _ _ _ ex i),
    fun i => real_of_abs_lt (y i) (Host.reduce_andi_all _ _ _ _ _ ey i)⟩

end Cert.Proof.Finite

end
-- ==== Proof.lean ====
/-
  Chamfer distance: a tiled kernel against the plain formula.

  The kernel augments the two clouds to eight columns — `[|p|², 1, −2p, 0,0,0]` and `[1, |t|², t, 0,0,0]` — so that one
  contraction over the columns gives `|p|² + |t|² − 2 p·t`, sweeps the `4096 × 4096` pairs of each batch in
  `512 × 512` tiles keeping running row minima (per row of tiles) and resident column minima (per batch chunk),
  and ends with the means of the two arrays of minima. The reference forms `|p|² + |t|² − 2 p·t` directly, takes the
  two whole-axis minima and the same means.

  * Frames: each kernel program terminates from any memory, faults nowhere and leaves the argument arrays unchanged
    (the per-case body runs chained along the grid); the reference's frame is its run with the result dropped.
  * The idealization rewrote nothing, so it is preserved trivially.
  * Values, on the extended reals: the running minima from +∞ are infima over growing index sets, so the kernel's two
    arrays end at the infima over all 4096 columns / rows of the augmented contraction; for FINITE clouds that
    contraction is the expanded squared distance (distributing −2 over the three products needs finiteness: this is
    where the precondition is used), hence the reference's two arrays; both programs end with literally the same
    host operations on those arrays.
-/
import proofs.«115503_j26963804685126_2_alg».proof.Defs
import proofs.«115503_j26963804685126_2_alg».proof.Proof.Gen.Kernel
import proofs.«115503_j26963804685126_2_alg».proof.Proof.Gen.KernelIdeal
import proofs.«115503_j26963804685126_2_alg».proof.Proof.Gen.ReferenceIdeal
import proofs.«115503_j26963804685126_2_alg».proof.Proof.Gen.Pre_finite_inputs
import proofs.«115503_j26963804685126_2_alg».proof.Proof.BitsFrame
import proofs.«115503_j26963804685126_2_alg».proof.Proof.IdealFinal
import proofs.«115503_j26963804685126_2_alg».proof.Proof.IdealTail
import proofs.«115503_j26963804685126_2_alg».proof.Proof.RefSide
import proofs.«115503_j26963804685126_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two clouds, both idealized programs end with the mean tail of the specification's two
    nearest-neighbour arrays of the clouds. -/
theorem algebraic : Cert.algebraic_KernelIdeal_ReferenceIdeal := by
  intro m ρ m' ρ' hpre hagree
  refine ⟨fun c => Chamfer.meanTail Cert.KernelIdeal.Facts₀.reducesTo_S16x4096_S16_d1 Cert.KernelIdeal.Facts₀.h_S_
      Cert.KernelIdeal.Facts₀.bcast_S_S16 Cert.KernelIdeal.Facts₀.reducesTo_S16_S_d0
      (Chamfer.nearX (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Chamfer.nearY (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · refine (θ_run Cert.KernelIdeal.defs _ _).mono (fun r h c => ⟨?_, (h c).2.1, (h c).2.2⟩) (Cert.KernelIdeal.Fr.result_main m ρ)
    obtain ⟨f0, f1⟩ := Cert.Proof.Finite.finite_of_fn _ _ (hpre c)
    rw [(h c).1, Cert.KernelIdeal.Fr.final_rows m c, Cert.KernelIdeal.Fr.final_cols m c,
      Cert.KernelIdeal.Fr.rowInf_eq_near m c f0 f1, Cert.KernelIdeal.Fr.colInf_eq_near m c f0 f1]
  · refine (θ_run Cert.ReferenceIdeal.defs _ _).mono (fun r h c => ⟨?_, (h c).2⟩) (Cert.ReferenceIdeal.Value.run (F := Ideal) m' ρ')
    refine (h c).1.trans ((Cert.ReferenceIdeal.Read.val_main_v23_eq (F := Ideal) _ _).trans
      ((Cert.ReferenceIdeal.RefSide.result_eq _ _).trans ?_))
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
